-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S64x8 : Shape := ⟨2, ![64, 8]⟩
abbrev S512x512 : Shape := ⟨2, ![512, 512]⟩
abbrev S512 : Shape := ⟨1, ![512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S64x8 : S_.BroadcastsInDim S64x8 (![] : Fin 0 → Fin S64x8.rank)
  reducesTo_S64x8_S_d0_1 : S64x8.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part3 {F : FTy → Type} [FloatOps F] (main_arg11 : FVec F S512 .f32) (main_arg12 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S2048x8 .f32) (main_arg8 : FVec F S2048 .f32) (main_arg9 : FVec F S512x2048 .f32) (main_arg10 : FVec F S512 .f32) (main_arg11 : FVec F S512 .f32) (main_arg12 : FVec F S512 .f32) (main_v33 : IVec S_ 1) : IVec S_ 1 :=
  let main_v34 : FVec F S2048x8 .f32 := Host.absf main_arg7
  let main_cst_12 : FVec F S_ .f32 := constant S_ .f32 0x7F800000#32
  let main_v35 : FVec F S2048x8 .f32 := broadcastInDim S2048x8 ![] bcast_S_S2048x8 main_cst_12
  let main_v36 : IVec S2048x8 1 := cmpf .olt main_v34 main_v35
  let main_c_13 : IVec S_ 1 := constantI S_ 1 1#1
  let main_v37 : IVec S_ 1 := (fun x v => Host.reduce IntOp.andi x v reducesTo_S2048x8_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S512x2048 .f32 := Host.absf main_arg9
  let main_cst_16 : FVec F S_ .f32 := constant S_ .f32 0x7F800000#32
  let main_v45 : FVec F S512x2048 .f32 := broadcastInDim S512x2048 ![] bcast_S_S512x2048 main_cst_16
  let main_v46 : IVec S512x2048 1 := cmpf .olt main_v44 main_v45
  let main_c_17 : IVec S_ 1 := constantI S_ 1 1#1
  let main_v47 : IVec S_ 1 := (fun x v => Host.reduce IntOp.andi x v reducesTo_S512x2048_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512 .f32) (main_arg6 : FVec F S8 .f32) (main_arg7 : FVec F S2048x8 .f32) (main_arg8 : FVec F S2048 .f32) (main_arg9 : FVec F S512x2048 .f32) (main_arg10 : FVec F S512 .f32) (main_arg11 : FVec F S512 .f32) (main_arg12 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x4096x512 .f32) (main_arg1 : FVec F S64x8 .f32) (main_arg2 : FVec F S512x512 .f32) (main_arg3 : FVec F S512 .f32) (main_arg4 : FVec F S512 .f32) (main_arg5 : FVec F S512 .f32) (main_arg6 : FVec F S8 .f32) (main_arg7 : FVec F S2048x8 .f32) (main_arg8 : FVec F S2048 .f32) (main_arg9 : FVec F S512x2048 .f32) (main_arg10 : FVec F S512 .f32) (main_arg11 : FVec F S512 .f32) (main_arg12 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S64x8 .f32 := Host.absf main_arg1
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S8x4096x512 : Shape := ⟨3, ![8, 4096, 512]⟩
abbrev S64x8 : Shape := ⟨2, ![64, 8]⟩
abbrev S512x512 : Shape := ⟨2, ![512, 512]⟩
abbrev S512 : Shape := ⟨1, ![512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S32768x512 : Shape := ⟨2, ![32768, 512]⟩
abbrev S1x512 : Shape := ⟨2, ![1, 512]⟩
abbrev S1x8 : Shape := ⟨2, ![1, 8]⟩
abbrev S_ : Shape := ⟨0, ![]⟩
abbrev S1x128 : Shape := ⟨2, ![1, 128]⟩
abbrev S8x2048 : Shape := ⟨2, ![8, 2048]⟩
abbrev S128x2048 : Shape := ⟨2, ![128, 2048]⟩
abbrev S1x2048 : Shape := ⟨2, ![1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S1024x2048 : Shape := ⟨2, ![1024, 2048]⟩

abbrev nBuf : Space → Nat
  | .hbm => 37
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S64x8, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8, .f32⟩
  | .hbm, ⟨7, _⟩ => ⟨S2048x8, .f32⟩
  | .hbm, ⟨8, _⟩ => ⟨S2048, .f32⟩
  | .hbm, ⟨9, _⟩ => ⟨S512x2048, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S32768x512, .f32⟩
  | .hbm, ⟨14, _⟩ => ⟨S1x512, .f32⟩
  | .hbm, ⟨15, _⟩ => ⟨S512x512, .f32⟩
  | .hbm, ⟨16, _⟩ => ⟨S512x512, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S8x2048, .f32⟩
  | .hbm, ⟨25, _⟩ => ⟨S_, .i32⟩
  | .hbm, ⟨26, _⟩ => ⟨S_, .f32⟩
  | .hbm, ⟨27, _⟩ => ⟨S128x2048, .f32⟩
  | .hbm, ⟨28, _⟩ => ⟨S128x2048, .bf16⟩
  | .hbm, ⟨29, _⟩ => ⟨S1x2048, .f32⟩
  | .hbm, ⟨30, _⟩ => ⟨S2048x512, .f32⟩
  | .hbm, ⟨31, _⟩ => ⟨S2048x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S32768x512, .f32⟩
  | .hbm, ⟨36, _⟩ => ⟨S8x4096x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x128, .f32⟩
  | .local _ .vmem, ⟨8, _⟩ => ⟨S128x2048, .bf16⟩
  | .local _ .vmem, ⟨9, _⟩ => ⟨S1x2048, .f32⟩
  | .local _ .vmem, ⟨10, _⟩ => ⟨S2048x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S8x4096x512_S32768x512 : S8x4096x512.ShapeCasts S32768x512
  shapeCasts_S64x8_S1x512 : S64x8.ShapeCasts S1x512
  transposes_S512x512_S512x512_1_0 : S512x512.Transposes [1, 0] S512x512
  bitsLt_bf16_f32 : FTy.bits .bf16 < FTy.bits .f32
  shapeCasts_S512_S1x512 : S512.ShapeCasts S1x512
  shapeCasts_S8_S1x8 : S8.ShapeCasts S1x8
  pads_S1x8_S1x128_000_01200 : S1x8.Pads (![0, 0] : Fin 2 → Nat) ![0, 120] ![0, 0] S1x128
  h_S_ : 0 < S_.numel
  transposes_S2048x8_S8x2048_1_0 : S2048x8.Transposes [1, 0] S8x2048
  pads_S8x2048_S128x2048_01200_000 : S8x2048.Pads (![0, 0] : Fin 2 → Nat) ![120, 0] ![0, 0] S128x2048
  shapeCasts_S2048_S1x2048 : S2048.ShapeCasts S1x2048
  transposes_S512x2048_S2048x512_1_0 : S512x2048.Transposes [1, 0] S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  broadcasts_S1024x1_S1024x512 : S1024x1.Broadcasts S1024x512
  slices_S1024x512_o0_0_S1024x128 : S1024x512.Slices ![0, 0] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S32768x512_S8x4096x512 : S32768x512.ShapeCasts S8x4096x512
  dot_S1024x512_S512x512_S1024x512_1_0_0_1_n_n_wf : DotDims.WF S1024x512 S512x512 S1024x512 [1] [0] [0] [1] [] []
  dot_S1024x128_S128x2048_S1024x2048_1_0_0_1_n_n_wf : DotDims.WF S1024x128 S128x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S128x2048.size a
  hwx0_7 : ∀ i : grid0.Coords, EltTy.bits .bf16 = 32 ∨ (Rect.block (s := S128x2048) S128x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S32768x512.size a
  hwx0_13 : ∀ i : grid0.Coords, EltTy.bits .f32 = 32 ∨ (Rect.block (s := S32768x512) S1024x512.size (cc0_transform_13 i) (hinb0_13 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S128x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1024x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S64x8 : Shape := ⟨2, ![64, 8]⟩
abbrev S512x512 : Shape := ⟨2, ![512, 512]⟩
abbrev S512 : Shape := ⟨1, ![512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S8x4096x64x8 : Shape := ⟨4, ![8, 4096, 64, 8]⟩
abbrev S1x1x64x8 : Shape := ⟨4, ![1, 1, 64, 8]⟩
abbrev S1x1x512 : Shape := ⟨3, ![1, 1, 512]⟩
abbrev S_ : Shape := ⟨0, ![]⟩
abbrev S8x4096 : Shape := ⟨2, ![8, 4096]⟩
abbrev S8x4096x1 : Shape := ⟨3, ![8, 4096, 1]⟩
abbrev S8x4096x8 : Shape := ⟨3, ![8, 4096, 8]⟩
abbrev S1x1x8 : Shape := ⟨3, ![1, 1, 8]⟩
abbrev S8x4096x2048 : Shape := ⟨3, ![8, 4096, 2048]⟩
abbrev S1x1x2048 : Shape := ⟨3, ![1, 1, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S64x8, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8, .f32⟩
  | .hbm, ⟨7, _⟩ => ⟨S2048x8, .f32⟩
  | .hbm, ⟨8, _⟩ => ⟨S2048, .f32⟩
  | .hbm, ⟨9, _⟩ => ⟨S512x2048, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S8x4096x64x8, .f32⟩
  | .hbm, ⟨14, _⟩ => ⟨S1x1x64x8, .f32⟩
  | .hbm, ⟨15, _⟩ => ⟨S8x4096x64x8, .f32⟩
  | .hbm, ⟨16, _⟩ => ⟨S8x4096x64x8, .f32⟩
  | .hbm, ⟨17, _⟩ => ⟨S8x4096x64x8, .f32⟩
  | .hbm, ⟨18, _⟩ => ⟨S8x4096x512, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x512, .f32⟩
  | .hbm, ⟨46, _⟩ => ⟨S8x4096x512, .f32⟩
  | .hbm, ⟨47, _⟩ => ⟨S1x1x512, .f32⟩
  | .hbm, ⟨48, _⟩ => ⟨S8x4096x512, .f32⟩
  | .hbm, ⟨49, _⟩ => ⟨S8x4096x512, .f32⟩
  | .hbm, ⟨50, _⟩ => ⟨S1x1x512, .f32⟩
  | .hbm, ⟨51, _⟩ => ⟨S8x4096x512, .f32⟩
  | .hbm, ⟨52, _⟩ => ⟨S8x4096x512, .f32⟩
  | .hbm, ⟨53, _⟩ => ⟨S8x4096x8, .f32⟩
  | .hbm, ⟨54, _⟩ => ⟨S1x1x8, .f32⟩
  | .hbm, ⟨55, _⟩ => ⟨S8x4096x8, .f32⟩
  | .hbm, ⟨56, _⟩ => ⟨S8x4096x8, .f32⟩
  | .hbm, ⟨57, _⟩ => ⟨S8x4096x8, .f32⟩
  | .hbm, ⟨58, _⟩ => ⟨S8x4096x2048, .f32⟩
  | .hbm, ⟨59, _⟩ => ⟨S1x1x2048, .f32⟩
  | .hbm, ⟨60, _⟩ => ⟨S8x4096x2048, .f32⟩
  | .hbm, ⟨61, _⟩ => ⟨S8x4096x2048, .f32⟩
  | .hbm, ⟨62, _⟩ => ⟨S_, .f32⟩
  | .hbm, ⟨63, _⟩ => ⟨S8x4096x2048, .f32⟩
  | .hbm, ⟨64, _⟩ => ⟨S8x4096x2048, .f32⟩
  | .hbm, ⟨65, _⟩ => ⟨S8x4096x512, .f32⟩
  | .hbm, ⟨66, _⟩ => ⟨S1x1x512, .f32⟩
  | .hbm, ⟨67, _⟩ => ⟨S8x4096x512, .f32⟩
  | .hbm, ⟨68, _⟩ => ⟨S8x4096x512, .f32⟩
  | .hbm, ⟨69, _⟩ => ⟨S8x4096x512, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x512, .f32⟩
  | .hbm, ⟨77, _⟩ => ⟨S8x4096x512, .f32⟩
  | .hbm, ⟨78, _⟩ => ⟨S8x4096x512, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x512, .f32⟩
  | .hbm, ⟨86, _⟩ => ⟨S8x4096x512, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x1, .f32⟩
  | .hbm, ⟨91, _⟩ => ⟨S8x4096x512, .f32⟩
  | .hbm, ⟨92, _⟩ => ⟨S8x4096x512, .f32⟩
  | .hbm, ⟨93, _⟩ => ⟨S1x1x512, .f32⟩
  | .hbm, ⟨94, _⟩ => ⟨S8x4096x512, .f32⟩
  | .hbm, ⟨95, _⟩ => ⟨S8x4096x512, .f32⟩
  | .hbm, ⟨96, _⟩ => ⟨S1x1x512, .f32⟩
  | .hbm, ⟨97, _⟩ => ⟨S8x4096x512, .f32⟩
  | .hbm, ⟨98, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  shapeCasts_S8x4096x512_S8x4096x64x8 : S8x4096x512.ShapeCasts S8x4096x64x8
  bcast_S64x8_S1x1x64x8_2_3 : S64x8.BroadcastsInDim S1x1x64x8 (![2, 3] : Fin 2 → Fin S1x1x64x8.rank)
  bcast_S1x1x64x8_S8x4096x64x8_0_1_2_3 : S1x1x64x8.BroadcastsInDim S8x4096x64x8 (![0, 1, 2, 3] : Fin 4 → Fin S8x4096x64x8.rank)
  shapeCasts_S8x4096x64x8_S8x4096x512 : S8x4096x64x8.ShapeCasts S8x4096x512
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x512_0_1_2 : S8x4096x1.BroadcastsInDim S8x4096x512 (![0, 1, 2] : Fin 3 → Fin S8x4096x512.rank)
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  dot_S8x4096x512_S512x512_S8x4096x512_2_1_01_0_n_n_wf : DotDims.WF S8x4096x512 S512x512 S8x4096x512 [2] [1] [0, 1] [0] [] []
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x512_S512x512_S8x4096x512_2_1_01_0_n_n : DotDims S8x4096x512 S512x512 S8x4096x512 where
  lhsContracting := [2]
  rhsContracting := [1]
  lhsNonContracting := [0, 1]
  rhsNonContracting := [0]
  lhsBatch := []
  rhsBatch := []
  wf := dot_S8x4096x512_S512x512_S8x4096x512_2_1_01_0_n_n_wf
def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.Spec.lean ====
/-
  One token of the block, as a function on the extended reals.

  A token is a row of 512 features.  The block maps it through
    attention     y(f)  = x(f) + (Σₖ cos(x(k) + θ(k)) · W(k, f) + c(f))
    layer norm    x₁    = LN(γ₁, β₁)(y)
    hidden layer  h(f)  = max(Σ_{k<n} cos(x₁(k) + ϑ(k)) · U(k, f) + d(f), 0)      (only the first n features enter)
    projection    z(e)  = x₁(e) + (Σ_f h(f) · V(f, e) + b(e))
    layer norm    out   = LN(γ₂, β₂)(z)
  where LN(γ, β)(v)(e) = (v(e) − μ) · rsqrt(σ² + ε) · γ(e) + β(e), μ the mean of v and σ² the mean of (v − μ)².
  The weights are taken in the layout "contracted index first": W(k, f), U(k, f), V(f, e).

  Every token is treated alone, so a program computes the block exactly when each of its rows is this function
  of the matching input row.  The one algebraic fact recorded here: feeding the hidden layer more than n
  features changes nothing when the extra rows of U are zero, because anything times zero is zero on the
  extended reals (the infinities included), and adding zeros changes no sum.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- The number of features, 512, as the float the programs divide by. -/
def c512 : EReal := Ideal.ofBits .f32 0x44000000#32
/-- The layer norm's ε (the float nearest 1e-5; the same word in both programs). -/
def eps : EReal := Ideal.ofBits .f32 0x3727C5AC#32
/-- The float zero the hidden layer is clamped against. -/
def z32 : EReal := Ideal.ofBits .f32 0x00000000#32

/-- The mean of a row. -/
def mean (v : Fin 512 → EReal) : EReal := Ideal.div (∑ k, v k) c512

/-- A row centred and scaled: (v e − μ) · rsqrt(σ² + ε). -/
def norm (v : Fin 512 → EReal) (e : Fin 512) : EReal :=
  (v e - mean v) * Ideal.rsqrt (mean (fun k => (v k - mean v) * (v k - mean v)) + eps)

/-- Layer norm with gain g and offset b. -/
def ln (g b v : Fin 512 → EReal) (e : Fin 512) : EReal := norm v e * g e + b e

/-- The attention step with its residual. -/
def attn (θ : Fin 512 → EReal) (W : Fin 512 → Fin 512 → EReal) (c x : Fin 512 → EReal) (f : Fin 512) : EReal :=
  x f + ((∑ k, Ideal.cos (x k + θ k) * W k f) + c f)

/-- The hidden layer over the first n features. -/
def hidden {n : ℕ} (hn : n ≤ 512) (ϑ : Fin n → EReal) (U : Fin n → Fin 2048 → EReal) (d : Fin 2048 → EReal)
    (x₁ : Fin 512 → EReal) (f : Fin 2048) : EReal :=
  max ((∑ k : Fin n, Ideal.cos (x₁ (Fin.castLE hn k) + ϑ k) * U k f) + d f) z32

/-- The projection back to 512 features with its residual. -/
def proj (V : Fin 2048 → Fin 512 → EReal) (b : Fin 512 → EReal) (h : Fin 2048 → EReal) (x₁ : Fin 512 → EReal)
    (e : Fin 512) : EReal :=
  x₁ e + ((∑ f, h f * V f e) + b e)

/-- The whole block on one token, the hidden layer fed n features. -/
def block {n : ℕ} (hn : n ≤ 512) (θ : Fin 512 → EReal) (W : Fin 512 → Fin 512 → EReal) (c g₁ b₁ : Fin 512 → EReal)
    (ϑ : Fin n → EReal) (U : Fin n → Fin 2048 → EReal) (d : Fin 2048 → EReal)
    (V : Fin 2048 → Fin 512 → EReal) (b g₂ b₂ x : Fin 512 → EReal) : Fin 512 → EReal :=
  ln g₂ b₂ (proj V b (hidden hn ϑ U d (ln g₁ b₁ (attn θ W c x))) (ln g₁ b₁ (attn θ W c x)))

/-- A sum over 128 terms whose last 120 vanish is the sum of the first 8. -/
theorem sum_128_eq_sum_8 (F : Fin 128 → EReal) (hz : ∀ k : Fin 128, 8 ≤ k.val → F k = 0) :
    ∑ k : Fin 128, F k = ∑ k : Fin 8, F (Fin.castLE (by decide) k) := by
  have h := Fin.sum_univ_add (M := EReal) (a := 8) (b := 120) F
  rw [show (∑ k : Fin 128, F k) = ∑ k : Fin (8 + 120), F k from rfl, h]
  have hz' : ∑ k : Fin 120, F (Fin.natAdd 8 k) = 0 :=
    Finset.sum_eq_zero fun k _ => hz _ (by simp [Fin.natAdd])
  rw [hz', add_zero]
  exact Finset.sum_congr rfl fun k _ => congrArg F (Fin.ext rfl)

/-- The hidden layer fed 128 features, the last 120 rows of U zero, is the hidden layer fed the first 8. -/
theorem hidden_128_eq_8 (ϑ' : Fin 128 → EReal) (U' : Fin 128 → Fin 2048 → EReal) (ϑ : Fin 8 → EReal)
    (U : Fin 8 → Fin 2048 → EReal) (d : Fin 2048 → EReal) (x₁ : Fin 512 → EReal)
    (hϑ : ∀ k : Fin 8, ϑ' (Fin.castLE (by decide) k) = ϑ k)
    (hU : ∀ (k : Fin 8) f, U' (Fin.castLE (by decide) k) f = U k f)
    (hz : ∀ (k : Fin 128) f, 8 ≤ k.val → U' k f = 0) :
    hidden (n := 128) (by decide) ϑ' U' d x₁ = hidden (n := 8) (by decide) ϑ U d x₁ := by
  funext f
  unfold hidden
  rw [sum_128_eq_sum_8 _ (fun k hk => by rw [hz k f hk, mul_zero])]
  congr 2
  exact Finset.sum_congr rfl fun k _ => by
    rw [hϑ k, hU k f]
    rfl

/-- So the block with the hidden layer fed 128 features, the last 120 rows of U zero, is the block with it fed 8. -/
theorem block_128_eq_8 (θ : Fin 512 → EReal) (W : Fin 512 → Fin 512 → EReal) (c g₁ b₁ : Fin 512 → EReal)
    (ϑ' : Fin 128 → EReal) (U' : Fin 128 → Fin 2048 → EReal) (ϑ : Fin 8 → EReal) (U : Fin 8 → Fin 2048 → EReal)
    (d : Fin 2048 → EReal) (V : Fin 2048 → Fin 512 → EReal) (b g₂ b₂ x : Fin 512 → EReal)
    (hϑ : ∀ k : Fin 8, ϑ' (Fin.castLE (by decide) k) = ϑ k)
    (hU : ∀ (k : Fin 8) f, U' (Fin.castLE (by decide) k) f = U k f)
    (hz : ∀ (k : Fin 128) f, 8 ≤ k.val → U' k f = 0) :
    block (n := 128) (by decide) θ W c g₁ b₁ ϑ' U' d V b g₂ b₂ x
      = block (n := 8) (by decide) θ W c g₁ b₁ ϑ U d V b g₂ b₂ x := by
  unfold block
  rw [hidden_128_eq_8 ϑ' U' ϑ U d _ hϑ hU hz]

/-! ## The block on the whole input

The input is 8 × 4096 tokens; the parameters are the arrays both programs are given: θ as 64 × 8 (feature k is entry
(k / 8, k mod 8)), the three weight matrices with the contracted index LAST (Wc(f, k), W1(f, k), W2(e, f)), the
others as plain vectors. -/

/-- The result of the block, entry (b, s, e): the block function of token (b, s), read at feature e. -/
def Gtok (x : (⟨3, ![8, 4096, 512]⟩ : Shape).Idx → EReal) (θ : (⟨2, ![64, 8]⟩ : Shape).Idx → EReal)
    (Wc : (⟨2, ![512, 512]⟩ : Shape).Idx → EReal) (c g₁ b₁ : (⟨1, ![512]⟩ : Shape).Idx → EReal)
    (ϑ : (⟨1, ![8]⟩ : Shape).Idx → EReal) (W1 : (⟨2, ![2048, 8]⟩ : Shape).Idx → EReal)
    (d : (⟨1, ![2048]⟩ : Shape).Idx → EReal) (W2 : (⟨2, ![512, 2048]⟩ : Shape).Idx → EReal)
    (b g₂ b₂ : (⟨1, ![512]⟩ : Shape).Idx → EReal) : (⟨3, ![8, 4096, 512]⟩ : Shape).Idx → EReal :=
  fun i => block (n := 8) (by decide)
    (fun k => θ (ix2 (⟨k.val / 8, by have := k.isLt; omega⟩ : Fin 64) (⟨k.val % 8, by omega⟩ : Fin 8)))
    (fun k f => Wc (ix2 f k)) (fun f => c (ix1 f)) (fun e => g₁ (ix1 e)) (fun e => b₁ (ix1 e))
    (fun k => ϑ (ix1 k)) (fun k f => W1 (ix2 f k)) (fun f => d (ix1 f)) (fun f e => W2 (ix2 e f))
    (fun e => b (ix1 e)) (fun e => g₂ (ix1 e)) (fun e => b₂ (ix1 e))
    (fun k => x (ix3 (i 0) (i 1) k)) (i 2)

end Cert.Spec

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.KernelBlock.lean ====
/-
  The kernel's body on one block of 1024 tokens, read entry by entry.

  The body loads a block x of 1024 rows and the (whole) parameter arrays, and stores one block.  Row p of what it
  stores depends on row p of x alone: it is the block function of the specification applied to that row, the hidden
  layer fed the first 128 normalised features.  The proof reads the body's operations one at a time at an entry
  (p, e): a parameter row spread over the 1024 rows is its entry e; a row sum kept as a column and spread back is the
  row's sum; a matrix product into a zero accumulator is the sum over the contracted index; the other operations act
  entry by entry, and a change of float format is the identity on the extended reals.
-/
import proofs.«171714_j65481071402459_2_alg».proof.Proof.Gen.KernelIdeal.Skeleton
import proofs.«171714_j65481071402459_2_alg».proof.Proof.Spec
import proofs.«171714_j65481071402459_2_alg».proof.Proof.LibKeepdims
import proofs.«171714_j65481071402459_2_alg».proof.Proof.LibDense
import Idealize.ShloMosaic.Lib.ValueLayout

noncomputable section

namespace Cert.KernelIdeal.Block

open Idealize.ShloMosaic Idealize.ShloMosaic.ValueIdx Cert.KernelIdeal Cert.KernelIdeal.Gen
open Cert.Lib.Keepdims Cert.Lib.Dense
open scoped BigOperators

/-- A parameter row [1, b], loaded whole and spread over a rows, reads at (p, c) the row's entry c. -/
theorem rowSpread {a b : ℕ} (v : (⟨2, ![1, b]⟩ : Shape).Idx → EReal)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [broadcastTo_1b_ab_apply, shapeCast_self]

/-! ## Layer norm on a block, in the body's own operations -/

/-- The column of row means. -/
def muK (v : FVec Ideal S1024x512 .f32) : FVec Ideal S1024x1 .f32 :=
  divf (shapeCast S1024x1 (multiReduction .add [1] S1024 v 0x00000000#32 reduces_S1024x512_S1024 (.inl rfl) rfl)
    shapeCasts_S1024_S1024x1) (broadcast S1024x1 (Scalar.ofBits .f32 0x44000000#32))

/-- The block with each row's mean taken off. -/
def cenK (v : FVec Ideal S1024x512 .f32) : FVec Ideal S1024x512 .f32 :=
  subf v (broadcastTo S1024x512 (muK v) broadcasts_S1024x1_S1024x512)

/-- The column of reciprocal standard deviations. -/
def rstdK (v : FVec Ideal S1024x512 .f32) : FVec Ideal S1024x1 .f32 :=
  rsqrt (addf (muK (mulf (cenK v) (cenK v))) (broadcast S1024x1 (Scalar.ofBits .f32 0x3727C5AC#32)))

/-- The sum of a block along its rows' entries, with the zero word as the printed programs carry it. -/
theorem rowSum1024 (src : FVec Ideal S1024x512 .f32) (h : S1024x512.Reduces [1] S1024) (hφ : FKind.Formats .f32)
    (hacc : (0x00000000#32 : BitVec 32) = 0x00000000#32) (i : Fin 1024) :
    multiReduction .add [1] S1024 src 0x00000000#32 h hφ hacc (ix1 i) = ∑ k : Fin 512, src (ix2 i k) :=
  rowSum_apply src 0x00000000#32 h hφ hacc i

theorem muK_apply (v : FVec Ideal S1024x512 .f32) (p : Fin 1024) (u : Fin 1) :
    muK v (ix2 p u) = Spec.mean (fun k => v (ix2 p k)) := by
  unfold muK
  rw [divf_apply, shapeCast_a_a1_apply, rowSum1024]
  rfl

theorem cenK_apply (v : FVec Ideal S1024x512 .f32) (p : Fin 1024) (e : Fin 512) :
    cenK v (ix2 p e) = v (ix2 p e) - Spec.mean (fun k => v (ix2 p k)) := by
  unfold cenK
  rw [subf_apply, broadcastTo_a1_ab_apply, muK_apply]

theorem rstdK_apply (v : FVec Ideal S1024x512 .f32) (p : Fin 1024) (u : Fin 1) :
    rstdK v (ix2 p u)
      = Ideal.rsqrt (Spec.mean (fun k => (v (ix2 p k) - Spec.mean (fun k => v (ix2 p k)))
          * (v (ix2 p k) - Spec.mean (fun k => v (ix2 p k)))) + Spec.eps) := by
  unfold rstdK
  show Ideal.rsqrt (muK (mulf (cenK v) (cenK v)) (ix2 p u) + Spec.eps) = _
  rw [muK_apply]
  congr 3
  funext k
  rw [mulf_apply, cenK_apply]

/-- The normalised block at an entry is the specification's normalised row. -/
theorem normK_apply (v : FVec Ideal S1024x512 .f32) (p : Fin 1024) (e : Fin 512) :
    mulf (cenK v) (broadcastTo S1024x512 (rstdK v) broadcasts_S1024x1_S1024x512) (ix2 p e)
      = Spec.norm (fun k => v (ix2 p k)) e := by
  rw [mulf_apply, broadcastTo_a1_ab_apply, cenK_apply, rstdK_apply]
  rfl

/-! ## Attention -/

/-- The block after the attention step and its residual, in the body's own operations. -/
def attnK (x0 : Vec Ideal S1024x512 .f32) (x1 : Vec Ideal S1x512 .f32) (x2 : Vec Ideal S512x512 .bf16)
    (x3 : Vec Ideal S1x512 .f32) : FVec Ideal S1024x512 .f32 :=
  addf (shapeCast S1024x512 x0 shapeCasts_S1024x512_S1024x512)
    (addf (matmul dot_S1024x512_S512x512_S1024x512_1_0_0_1_n_n none
        (truncf .bf16 (cos (addf (shapeCast S1024x512 x0 shapeCasts_S1024x512_S1024x512)
          (broadcastTo S1024x512 (shapeCast S1x512 x1 shapeCasts_S1x512_S1x512) broadcasts_S1x512_S1024x512))) bitsLt_bf16_f32)
        (shapeCast S512x512 x2 shapeCasts_S512x512_S512x512 : FVec Ideal S512x512 .bf16) (constant S1024x512 .f32 0x00000000#32))
      (broadcastTo S1024x512 (shapeCast S1x512 x3 shapeCasts_S1x512_S1x512) broadcasts_S1x512_S1024x512))

theorem attnK_apply (x0 : Vec Ideal S1024x512 .f32) (x1 : Vec Ideal S1x512 .f32) (x2 : Vec Ideal S512x512 .bf16)
    (x3 : Vec Ideal S1x512 .f32) (p : Fin 1024) (f : Fin 512) :
    attnK x0 x1 x2 x3 (ix2 p f)
      = Spec.attn (fun k => x1 (ix2 (0 : Fin 1) k)) (fun k f => x2 (ix2 k f)) (fun f => x3 (ix2 (0 : Fin 1) f))
          (fun k => x0 (ix2 p k)) f := by
  unfold attnK
  simp only [shapeCast_self]
  rw [addf_apply, addf_apply,
    matmul_zero_at dot_S1024x512_S512x512_S1024x512_1_0_0_1_n_n rfl rfl rfl rfl rfl rfl, broadcastTo_1b_ab_apply]
  unfold rowDot Spec.attn
  congr 2
  refine Finset.sum_congr rfl fun k _ => ?_
  show Ideal.cos (x0 (ix2 p k) + broadcastTo S1024x512 x1 broadcasts_S1x512_S1024x512 (ix2 p k)) * _ = _
  rw [broadcastTo_1b_ab_apply]

/-- The first normalised block without its offset, as the body computes it. -/
theorem pay2_eq (x0 : Vec Ideal S1024x512 .f32) (x1 : Vec Ideal S1x512 .f32) (x2 : Vec Ideal S512x512 .bf16)
    (x3 x4 : Vec Ideal S1x512 .f32) :
    k0_pay2 x0 x1 x2 x3 x4
      = mulf (mulf (cenK (attnK x0 x1 x2 x3))
          (broadcastTo S1024x512 (rstdK (attnK x0 x1 x2 x3)) broadcasts_S1024x1_S1024x512))
          (broadcastTo S1024x512 (shapeCast S1x512 x4 shapeCasts_S1x512_S1x512) broadcasts_S1x512_S1024x512) := rfl

/-- The first layer norm's output at an entry. -/
theorem x1K_apply (x0 : Vec Ideal S1024x512 .f32) (x1 : Vec Ideal S1x512 .f32) (x2 : Vec Ideal S512x512 .bf16)
    (x3 x4 x5 : Vec Ideal S1x512 .f32) (p : Fin 1024) (e : Fin 512) :
    addf (k0_pay2 x0 x1 x2 x3 x4) (k0_pay3 x5) (ix2 p e)
      = Spec.ln (fun e => x4 (ix2 (0 : Fin 1) e)) (fun e => x5 (ix2 (0 : Fin 1) e))
          (Spec.attn (fun k => x1 (ix2 (0 : Fin 1) k)) (fun k f => x2 (ix2 k f)) (fun f => x3 (ix2 (0 : Fin 1) f))
            (fun k => x0 (ix2 p k))) e := by
  rw [pay2_eq, addf_apply, mulf_apply, normK_apply, rowSpread]
  unfold k0_pay3
  rw [rowSpread]
  unfold Spec.ln
  congr 3
  funext k
  exact attnK_apply x0 x1 x2 x3 p k

/-! ## The feed-forward step -/

/-- The hidden layer on a block, in the body's own operations: the first 128 features of each row enter. -/
def hidK (v41 : FVec Ideal S1024x512 .f32) (x6 : Vec Ideal S1x128 .f32) (x7 : Vec Ideal S128x2048 .bf16)
    (x8 : Vec Ideal S1x2048 .f32) : FVec Ideal S1024x2048 .f32 :=
  maximumf (addf (matmul dot_S1024x128_S128x2048_S1024x2048_1_0_0_1_n_n none
        (truncf .bf16 (cos (addf (extractStridedSlice S1024x128 ![0, 0] v41 slices_S1024x512_o0_0_S1024x128)
          (broadcastTo S1024x128 (shapeCast S1x128 x6 shapeCasts_S1x128_S1x128) broadcasts_S1x128_S1024x128))) bitsLt_bf16_f32)
        (shapeCast S128x2048 x7 shapeCasts_S128x2048_S128x2048 : FVec Ideal S128x2048 .bf16)
        (constant S1024x2048 .f32 0x00000000#32))
      (broadcastTo S1024x2048 (shapeCast S1x2048 x8 shapeCasts_S1x2048_S1x2048) broadcasts_S1x2048_S1024x2048))
    (broadcast S1024x2048 (Scalar.ofBits .f32 0x00000000#32))

theorem hidK_apply (v41 : FVec Ideal S1024x512 .f32) (x6 : Vec Ideal S1x128 .f32) (x7 : Vec Ideal S128x2048 .bf16)
    (x8 : Vec Ideal S1x2048 .f32) (p : Fin 1024) (f : Fin 2048) :
    hidK v41 x6 x7 x8 (ix2 p f)
      = Spec.hidden (n := 128) (by decide) (fun k => x6 (ix2 (0 : Fin 1) k)) (fun k f => x7 (ix2 k f))
          (fun f => x8 (ix2 (0 : Fin 1) f)) (fun k => v41 (ix2 p k)) f := by
  unfold hidK
  simp only [shapeCast_self]
  rw [maximumf_apply, addf_apply,
    matmul_zero_at dot_S1024x128_S128x2048_S1024x2048_1_0_0_1_n_n rfl rfl rfl rfl rfl rfl, broadcastTo_1b_ab_apply,
    broadcast_apply]
  unfold rowDot Spec.hidden
  refine congrArg₂ max (congrArg₂ (· + ·) (Finset.sum_congr rfl fun k _ => ?_) rfl) rfl
  show Ideal.cos (extractStridedSlice S1024x128 ![0, 0] v41 slices_S1024x512_o0_0_S1024x128 (ix2 p k)
    + broadcastTo S1024x128 x6 broadcasts_S1x128_S1024x128 (ix2 p k)) * _ = _
  rw [slice2_axis1_apply 0 v41 _ p k (Fin.castLE (by decide) k) (by simp), broadcastTo_1b_ab_apply]

/-- The block after the feed-forward step and its residual, in the body's own operations. -/
def ffnK (v41 : FVec Ideal S1024x512 .f32) (x6 : Vec Ideal S1x128 .f32) (x7 : Vec Ideal S128x2048 .bf16)
    (x8 : Vec Ideal S1x2048 .f32) (x9 : Vec Ideal S2048x512 .bf16) (x10 : Vec Ideal S1x512 .f32) :
    FVec Ideal S1024x512 .f32 :=
  addf v41 (addf (matmul dot_S1024x2048_S2048x512_S1024x512_1_0_0_1_n_n none
      (truncf .bf16 (hidK v41 x6 x7 x8) bitsLt_bf16_f32)
      (shapeCast S2048x512 x9 shapeCasts_S2048x512_S2048x512 : FVec Ideal S2048x512 .bf16)
      (constant S1024x512 .f32 0x00000000#32))
    (broadcastTo S1024x512 (shapeCast S1x512 x10 shapeCasts_S1x512_S1x512) broadcasts_S1x512_S1024x512))

theorem ffnK_apply (v41 : FVec Ideal S1024x512 .f32) (x6 : Vec Ideal S1x128 .f32) (x7 : Vec Ideal S128x2048 .bf16)
    (x8 : Vec Ideal S1x2048 .f32) (x9 : Vec Ideal S2048x512 .bf16) (x10 : Vec Ideal S1x512 .f32)
    (p : Fin 1024) (e : Fin 512) :
    ffnK v41 x6 x7 x8 x9 x10 (ix2 p e)
      = Spec.proj (fun f e => x9 (ix2 f e)) (fun e => x10 (ix2 (0 : Fin 1) e))
          (Spec.hidden (n := 128) (by decide) (fun k => x6 (ix2 (0 : Fin 1) k)) (fun k f => x7 (ix2 k f))
            (fun f => x8 (ix2 (0 : Fin 1) f)) (fun k => v41 (ix2 p k)))
          (fun k => v41 (ix2 p k)) e := by
  unfold ffnK
  rw [addf_apply, addf_apply,
    matmul_zero_at dot_S1024x2048_S2048x512_S1024x512_1_0_0_1_n_n rfl rfl rfl rfl rfl rfl, rowSpread, shapeCast_self]
  unfold rowDot Spec.proj
  refine congrArg₂ (· + ·) rfl (congrArg₂ (· + ·) (Finset.sum_congr rfl fun f _ => ?_) rfl)
  exact congrArg₂ (· * ·) (hidK_apply v41 x6 x7 x8 p f) rfl

theorem pay4_eq (v37 v40 : FVec Ideal S1024x512 .f32) (x6 : Vec Ideal S1x128 .f32) (x7 : Vec Ideal S128x2048 .bf16)
    (x8 : Vec Ideal S1x2048 .f32) (x9 : Vec Ideal S2048x512 .bf16) (x10 : Vec Ideal S1x512 .f32) :
    k0_pay4 v37 v40 x6 x7 x8 x9 x10 = ffnK (addf v37 v40) x6 x7 x8 x9 x10 := rfl

/-- What the body stores, in the layer-norm operations above. -/
theorem pay1_eq (v37 v40 : FVec Ideal S1024x512 .f32) (x6 : Vec Ideal S1x128 .f32) (x7 : Vec Ideal S128x2048 .bf16)
    (x8 : Vec Ideal S1x2048 .f32) (x9 : Vec Ideal S2048x512 .bf16) (x10 x11 x12 : Vec Ideal S1x512 .f32) :
    k0_pay1 (k0_pay6 v37 v40 x6 x7 x8 x9 x10) (k0_pay7 v37 v40 x6 x7 x8 x9 x10) x11 x12
      = addf (mulf (mulf (cenK (ffnK (addf v37 v40) x6 x7 x8 x9 x10))
            (broadcastTo S1024x512 (rstdK (ffnK (addf v37 v40) x6 x7 x8 x9 x10)) broadcasts_S1024x1_S1024x512))
          (broadcastTo S1024x512 (shapeCast S1x512 x11 shapeCasts_S1x512_S1x512) broadcasts_S1x512_S1024x512))
        (broadcastTo S1024x512 (shapeCast S1x512 x12 shapeCasts_S1x512_S1x512) broadcasts_S1x512_S1024x512) := rfl

/-- THE BODY ON A BLOCK: entry (p, e) of what it stores is the block function of row p of x, the hidden layer fed
    the first 128 normalised features. -/
theorem outK_apply (x0 : Vec Ideal S1024x512 .f32) (x1 : Vec Ideal S1x512 .f32) (x2 : Vec Ideal S512x512 .bf16)
    (x3 x4 x5 : Vec Ideal S1x512 .f32) (x6 : Vec Ideal S1x128 .f32) (x7 : Vec Ideal S128x2048 .bf16)
    (x8 : Vec Ideal S1x2048 .f32) (x9 : Vec Ideal S2048x512 .bf16) (x10 x11 x12 : Vec Ideal S1x512 .f32)
    (p : Fin 1024) (e : Fin 512) :
    k0_pay1 (k0_pay6 (k0_pay2 x0 x1 x2 x3 x4) (k0_pay3 x5) x6 x7 x8 x9 x10)
        (k0_pay7 (k0_pay2 x0 x1 x2 x3 x4) (k0_pay3 x5) x6 x7 x8 x9 x10) x11 x12 (ix2 p e)
      = Spec.block (n := 128) (by decide) (fun k => x1 (ix2 (0 : Fin 1) k)) (fun k f => x2 (ix2 k f))
          (fun f => x3 (ix2 (0 : Fin 1) f)) (fun e => x4 (ix2 (0 : Fin 1) e)) (fun e => x5 (ix2 (0 : Fin 1) e))
          (fun k => x6 (ix2 (0 : Fin 1) k)) (fun k f => x7 (ix2 k f)) (fun f => x8 (ix2 (0 : Fin 1) f))
          (fun f e => x9 (ix2 f e)) (fun e => x10 (ix2 (0 : Fin 1) e)) (fun e => x11 (ix2 (0 : Fin 1) e))
          (fun e => x12 (ix2 (0 : Fin 1) e)) (fun k => x0 (ix2 p k)) e := by
  have hx1 : (fun k => addf (k0_pay2 x0 x1 x2 x3 x4) (k0_pay3 x5) (ix2 p k))
      = Spec.ln (fun e => x4 (ix2 (0 : Fin 1) e)) (fun e => x5 (ix2 (0 : Fin 1) e))
          (Spec.attn (fun k => x1 (ix2 (0 : Fin 1) k)) (fun k f => x2 (ix2 k f)) (fun f => x3 (ix2 (0 : Fin 1) f))
            (fun k => x0 (ix2 p k))) :=
    funext fun k => x1K_apply x0 x1 x2 x3 x4 x5 p k
  have hz : (fun k => ffnK (addf (k0_pay2 x0 x1 x2 x3 x4) (k0_pay3 x5)) x6 x7 x8 x9 x10 (ix2 p k))
      = Spec.proj (fun f e => x9 (ix2 f e)) (fun e => x10 (ix2 (0 : Fin 1) e))
          (Spec.hidden (n := 128) (by decide) (fun k => x6 (ix2 (0 : Fin 1) k)) (fun k f => x7 (ix2 k f))
            (fun f => x8 (ix2 (0 : Fin 1) f))
            (fun k => addf (k0_pay2 x0 x1 x2 x3 x4) (k0_pay3 x5) (ix2 p k)))
          (fun k => addf (k0_pay2 x0 x1 x2 x3 x4) (k0_pay3 x5) (ix2 p k)) :=
    funext fun k => ffnK_apply _ x6 x7 x8 x9 x10 p k
  rw [pay1_eq, addf_apply, mulf_apply, normK_apply, rowSpread, rowSpread, hz, hx1]
  rfl

end Cert.KernelIdeal.Block

end
-- ==== Proof.KernelLayout.lean ====
/-
  The layouts around the kernel's launch.

  The grid has 32 points; point t takes rows 1024·t … 1024·t + 1023 of the flattened input (32768 tokens of 512
  features) and every parameter array whole.  The arrays the body is given are the program's arguments re-laid by
  the host operations before the launch: the input and θ reshaped, the three weight matrices transposed, the vectors
  turned into one-row matrices, ϑ and the hidden layer's weights padded with zeros from 8 to 128 features.  Each is
  read here at an entry, in terms of the argument it came from.
-/
import proofs.«171714_j65481071402459_2_alg».proof.Proof.Gen.KernelIdeal.Frame
import proofs.«171714_j65481071402459_2_alg».proof.Proof.KernelBlock
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Arr

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Which block each window takes at point t: the input and the result block t along the rows, every parameter
    its one block. -/
theorem idx_facts : ∀ t : Fin cfg0.N, win0_0.index t (0 : Fin 2) = t.val
    ∧ win0_0.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ True :=
  (by decide +kernel : ∀ t : Fin grid0.N, _)

/-! ## The windows' blocks as parts of their arrays -/

/-- The input window's block at point t is rows 1024·t … of the flattened input. -/
theorem iblk0_apply (c : Dev nD) (t : Fin cfg0.N) (p : Fin 1024) (k : Fin 512) (r : Fin 32768)
    (hr : r.val = t.val * 1024 + p.val) :
    (iblk m c 0 t : S1024x512.Idx → EReal) (ix2 p k) = (V m c main_v0 : S32768x512.Idx → EReal) (ix2 r k) := by
  have h0 : win0_0.index t (0 : Fin 2) = t.val := (idx_facts t).1
  have h1 : win0_0.index t (1 : Fin 2) = 0 := (idx_facts t).2.1
  unfold iblk
  rw [View.read_apply]
  show V m c main_v0 _ = V m c main_v0 _
  congr 1
  funext a
  apply Fin.ext
  match a with
  | ⟨0, _⟩ => show win0_0.index t (0 : Fin 2) * 1024 + 1 * p.val = r.val; rw [h0, hr]; omega
  | ⟨1, _⟩ => show win0_0.index t (1 : Fin 2) * 512 + 1 * k.val = k.val; rw [h1]; omega

/-- Window 1 holds its whole array at every point. -/
theorem iblk1_eq (c : Dev nD) (t : Fin cfg0.N) :
    (iblk m c 1 t : S1x512.Idx → EReal) = (V m c main_v1 : S1x512.Idx → EReal) := by
  have h0 : win0_1.index t (0 : Fin 2) = 0 := (idx_facts t).2.2.2.2.1
  have h1 : win0_1.index t (1 : Fin 2) = 0 := (idx_facts t).2.2.2.2.2.1
  funext y
  unfold iblk
  rw [View.read_apply]
  show V m c main_v1 _ = V m c main_v1 y
  congr 1
  funext a
  apply Fin.ext
  match a with
  | ⟨0, _⟩ => show win0_1.index t (0 : Fin 2) * 1 + 1 * (y 0).val = (y 0).val; rw [h0]; omega
  | ⟨1, _⟩ => show win0_1.index t (1 : Fin 2) * 512 + 1 * (y 1).val = (y 1).val; rw [h1]; omega

/-- Window 2 holds its whole array at every point. -/
theorem iblk2_eq (c : Dev nD) (t : Fin cfg0.N) :
    (iblk m c 2 t : S512x512.Idx → EReal) = (V m c main_v3 : S512x512.Idx → EReal) := by
  have h0 : win0_2.index t (0 : Fin 2) = 0 := (idx_facts t).2.2.2.2.2.2.1
  have h1 : win0_2.index t (1 : Fin 2) = 0 := (idx_facts t).2.2.2.2.2.2.2.1
  funext y
  unfold iblk
  rw [View.read_apply]
  show V m c main_v3 _ = V m c main_v3 y
  congr 1
  funext a
  apply Fin.ext
  match a with
  | ⟨0, _⟩ => show win0_2.index t (0 : Fin 2) * 512 + 1 * (y 0).val = (y 0).val; rw [h0]; omega
  | ⟨1, _⟩ => show win0_2.index t (1 : Fin 2) * 512 + 1 * (y 1).val = (y 1).val; rw [h1]; omega

/-- Window 3 holds its whole array at every point. -/
theorem iblk3_eq (c : Dev nD) (t : Fin cfg0.N) :
    (iblk m c 3 t : S1x512.Idx → EReal) = (V m c main_v4 : S1x512.Idx → EReal) := by
  have h0 : win0_3.index t (0 : Fin 2) = 0 := (idx_facts t).2.2.2.2.2.2.2.2.1
  have h1 : win0_3.index t (1 : Fin 2) = 0 := (idx_facts t).2.2.2.2.2.2.2.2.2.1
  funext y
  unfold iblk
  rw [View.read_apply]
  show V m c main_v4 _ = V m c main_v4 y
  congr 1
  funext a
  apply Fin.ext
  match a with
  | ⟨0, _⟩ => show win0_3.index t (0 : Fin 2) * 1 + 1 * (y 0).val = (y 0).val; rw [h0]; omega
  | ⟨1, _⟩ => show win0_3.index t (1 : Fin 2) * 512 + 1 * (y 1).val = (y 1).val; rw [h1]; omega

/-- Window 4 holds its whole array at every point. -/
theorem iblk4_eq (c : Dev nD) (t : Fin cfg0.N) :
    (iblk m c 4 t : S1x512.Idx → EReal) = (V m c main_v5 : S1x512.Idx → EReal) := by
  have h0 : win0_4.index t (0 : Fin 2) = 0 := (idx_facts t).2.2.2.2.2.2.2.2.2.2.1
  have h1 : win0_4.index t (1 : Fin 2) = 0 := (idx_facts t).2.2.2.2.2.2.2.2.2.2.2.1
  funext y
  unfold iblk
  rw [View.read_apply]
  show V m c main_v5 _ = V m c main_v5 y
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 512 + 1 * (y 1).val = (y 1).val; rw [h1]; omega

/-- Window 5 holds its whole array at every point. -/
theorem iblk5_eq (c : Dev nD) (t : Fin cfg0.N) :
    (iblk m c 5 t : S1x512.Idx → EReal) = (V m c main_v6 : S1x512.Idx → EReal) := by
  have h0 : win0_5.index t (0 : Fin 2) = 0 := (idx_facts t).2.2.2.2.2.2.2.2.2.2.2.2.1
  have h1 : win0_5.index t (1 : Fin 2) = 0 := (idx_facts t).2.2.2.2.2.2.2.2.2.2.2.2.2.1
  funext y
  unfold iblk
  rw [View.read_apply]
  show V m c main_v6 _ = V m c main_v6 y
  congr 1
  funext a
  apply Fin.ext
  match a with
  | ⟨0, _⟩ => show win0_5.index t (0 : Fin 2) * 1 + 1 * (y 0).val = (y 0).val; rw [h0]; omega
  | ⟨1, _⟩ => show win0_5.index t (1 : Fin 2) * 512 + 1 * (y 1).val = (y 1).val; rw [h1]; omega

/-- Window 6 holds its whole array at every point. -/
theorem iblk6_eq (c : Dev nD) (t : Fin cfg0.N) :
    (iblk m c 6 t : S1x128.Idx → EReal) = (V m c main_v8 : S1x128.Idx → EReal) := by
  have h0 : win0_6.index t (0 : Fin 2) = 0 := (idx_facts t).2.2.2.2.2.2.2.2.2.2.2.2.2.2.1
  have h1 : win0_6.index t (1 : Fin 2) = 0 := (idx_facts t).2.2.2.2.2.2.2.2.2.2.2.2.2.2.2.1
  funext y
  unfold iblk
  rw [View.read_apply]
  show V m c main_v8 _ = V m c main_v8 y
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

/-- Window 7 holds its whole array at every point. -/
theorem iblk7_eq (c : Dev nD) (t : Fin cfg0.N) :
    (iblk m c 7 t : S128x2048.Idx → EReal) = (V m c main_v11 : S128x2048.Idx → EReal) := by
  have h0 : win0_7.index t (0 : Fin 2) = 0 := (idx_facts t).2.2.2.2.2.2.2.2.2.2.2.2.2.2.2.2.1
  have h1 : win0_7.index t (1 : Fin 2) = 0 := (idx_facts t).2.2.2.2.2.2.2.2.2.2.2.2.2.2.2.2.2.1
  funext y
  unfold iblk
  rw [View.read_apply]
  show V m c main_v11 _ = V m c main_v11 y
  congr 1
  funext a
  apply Fin.ext
  match a with
  | ⟨0, _⟩ => show win0_7.index t (0 : Fin 2) * 128 + 1 * (y 0).val = (y 0).val; rw [h0]; omega
  | ⟨1, _⟩ => show win0_7.index t (1 : Fin 2) * 2048 + 1 * (y 1).val = (y 1).val; rw [h1]; omega

/-- Window 8 holds its whole array at every point. -/
theorem iblk8_eq (c : Dev nD) (t : Fin cfg0.N) :
    (iblk m c 8 t : S1x2048.Idx → EReal) = (V m c main_v12 : S1x2048.Idx → EReal) := by
  have h0 : win0_8.index t (0 : Fin 2) = 0 := (idx_facts t).2.2.2.2.2.2.2.2.2.2.2.2.2.2.2.2.2.2.1
  have h1 : win0_8.index t (1 : Fin 2) = 0 := (idx_facts t).2.2.2.2.2.2.2.2.2.2.2.2.2.2.2.2.2.2.2.1
  funext y
  unfold iblk
  rw [View.read_apply]
  show V m c main_v12 _ = V m c main_v12 y
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 2048 + 1 * (y 1).val = (y 1).val; rw [h1]; omega

/-- Window 9 holds its whole array at every point. -/
theorem iblk9_eq (c : Dev nD) (t : Fin cfg0.N) :
    (iblk m c 9 t : S2048x512.Idx → EReal) = (V m c main_v14 : S2048x512.Idx → EReal) := by
  have h0 : win0_9.index t (0 : Fin 2) = 0 := (idx_facts t).2.2.2.2.2.2.2.2.2.2.2.2.2.2.2.2.2.2.2.2.1
  have h1 : win0_9.index t (1 : Fin 2) = 0 := (idx_facts t).2.2.2.2.2.2.2.2.2.2.2.2.2.2.2.2.2.2.2.2.2.1
  funext y
  unfold iblk
  rw [View.read_apply]
  show V m c main_v14 _ = V m c main_v14 y
  congr 1
  funext a
  apply Fin.ext
  match a with
  | ⟨0, _⟩ => show win0_9.index t (0 : Fin 2) * 2048 + 1 * (y 0).val = (y 0).val; rw [h0]; omega
  | ⟨1, _⟩ => show win0_9.index t (1 : Fin 2) * 512 + 1 * (y 1).val = (y 1).val; rw [h1]; omega

/-- Window 10 holds its whole array at every point. -/
theorem iblk10_eq (c : Dev nD) (t : Fin cfg0.N) :
    (iblk m c 10 t : S1x512.Idx → EReal) = (V m c main_v15 : S1x512.Idx → EReal) := by
  have h0 : win0_10.index t (0 : Fin 2) = 0 := (idx_facts t).2.2.2.2.2.2.2.2.2.2.2.2.2.2.2.2.2.2.2.2.2.2.1
  have h1 : win0_10.index t (1 : Fin 2) = 0 := (idx_facts t).2.2.2.2.2.2.2.2.2.2.2.2.2.2.2.2.2.2.2.2.2.2.2.1
  funext y
  unfold iblk
  rw [View.read_apply]
  show V m c main_v15 _ = V m c main_v15 y
  congr 1
  funext a
  apply Fin.ext
  match a with
  | ⟨0, _⟩ => show win0_10.index t (0 : Fin 2) * 1 + 1 * (y 0).val = (y 0).val; rw [h0]; omega
  | ⟨1, _⟩ => show win0_10.index t (1 : Fin 2) * 512 + 1 * (y 1).val = (y 1).val; rw [h1]; omega

/-- Window 11 holds its whole array at every point. -/
theorem iblk11_eq (c : Dev nD) (t : Fin cfg0.N) :
    (iblk m c 11 t : S1x512.Idx → EReal) = (V m c main_v16 : S1x512.Idx → EReal) := by
  have h0 : win0_11.index t (0 : Fin 2) = 0 := (idx_facts t).2.2.2.2.2.2.2.2.2.2.2.2.2.2.2.2.2.2.2.2.2.2.2.2.1
  have h1 : win0_11.index t (1 : Fin 2) = 0 := (idx_facts t).2.2.2.2.2.2.2.2.2.2.2.2.2.2.2.2.2.2.2.2.2.2.2.2.2.1
  funext y
  unfold iblk
  rw [View.read_apply]
  show V m c main_v16 _ = V m c main_v16 y
  congr 1
  funext a
  apply Fin.ext
  match a with
  | ⟨0, _⟩ => show win0_11.index t (0 : Fin 2) * 1 + 1 * (y 0).val = (y 0).val; rw [h0]; omega
  | ⟨1, _⟩ => show win0_11.index t (1 : Fin 2) * 512 + 1 * (y 1).val = (y 1).val; rw [h1]; omega

/-- Window 12 holds its whole array at every point. -/
theorem iblk12_eq (c : Dev nD) (t : Fin cfg0.N) :
    (iblk m c 12 t : S1x512.Idx → EReal) = (V m c main_v17 : S1x512.Idx → EReal) := by
  have h0 : win0_12.index t (0 : Fin 2) = 0 := (idx_facts t).2.2.2.2.2.2.2.2.2.2.2.2.2.2.2.2.2.2.2.2.2.2.2.2.2.2.1
  have h1 : win0_12.index t (1 : Fin 2) = 0 := (idx_facts t).2.2.2.2.2.2.2.2.2.2.2.2.2.2.2.2.2.2.2.2.2.2.2.2.2.2.2.1
  funext y
  unfold iblk
  rw [View.read_apply]
  show V m c main_v17 _ = V m c main_v17 y
  congr 1
  funext a
  apply Fin.ext
  match a with
  | ⟨0, _⟩ => show win0_12.index t (0 : Fin 2) * 1 + 1 * (y 0).val = (y 0).val; rw [h0]; omega
  | ⟨1, _⟩ => show win0_12.index t (1 : Fin 2) * 512 + 1 * (y 1).val = (y 1).val; rw [h1]; omega

/-! ## The arrays as the launch finds them -/

/-- The program's arguments on core c. -/
abbrev a0 (c : Dev nD) : S8x4096x512.Idx → EReal := m ((c : Thread nD τ).loc main_arg0)
abbrev a1 (c : Dev nD) : S64x8.Idx → EReal := m ((c : Thread nD τ).loc main_arg1)
abbrev a2 (c : Dev nD) : S512x512.Idx → EReal := m ((c : Thread nD τ).loc main_arg2)
abbrev a3 (c : Dev nD) : S512.Idx → EReal := m ((c : Thread nD τ).loc main_arg3)
abbrev a4 (c : Dev nD) : S512.Idx → EReal := m ((c : Thread nD τ).loc main_arg4)
abbrev a5 (c : Dev nD) : S512.Idx → EReal := m ((c : Thread nD τ).loc main_arg5)
abbrev a6 (c : Dev nD) : S8.Idx → EReal := m ((c : Thread nD τ).loc main_arg6)
abbrev a7 (c : Dev nD) : S2048x8.Idx → EReal := m ((c : Thread nD τ).loc main_arg7)
abbrev a8 (c : Dev nD) : S2048.Idx → EReal := m ((c : Thread nD τ).loc main_arg8)
abbrev a9 (c : Dev nD) : S512x2048.Idx → EReal := m ((c : Thread nD τ).loc main_arg9)
abbrev a10 (c : Dev nD) : S512.Idx → EReal := m ((c : Thread nD τ).loc main_arg10)
abbrev a11 (c : Dev nD) : S512.Idx → EReal := m ((c : Thread nD τ).loc main_arg11)
abbrev a12 (c : Dev nD) : S512.Idx → EReal := m ((c : Thread nD τ).loc main_arg12)

/-- Reads one buffer after the host operations before the launch. -/
macro "host_prefix" : tactic => `(tactic| (
  dsimp only [V, V0]
  simp only [hostOps0, hostOps0_1, hostOps0_2, hostOps0_3, hostOps0_4, List.flatten_cons, List.flatten_nil,
    List.append_nil, List.cons_append, List.nil_append]
  after_results
  rfl))

theorem V_v0 (c : Dev nD) : (V m c main_v0 : S32768x512.Idx → EReal)
    = shapeCast S32768x512 (a0 m c) shapeCasts_S8x4096x512_S32768x512 := by host_prefix
theorem V_v1 (c : Dev nD) : (V m c main_v1 : S1x512.Idx → EReal)
    = shapeCast S1x512 (a1 m c) shapeCasts_S64x8_S1x512 := by host_prefix
theorem V_v3 (c : Dev nD) : (V m c main_v3 : S512x512.Idx → EReal)
    = transpose S512x512 [1, 0] (a2 m c) transposes_S512x512_S512x512_1_0 := by host_prefix
theorem V_v4 (c : Dev nD) : (V m c main_v4 : S1x512.Idx → EReal)
    = shapeCast S1x512 (a3 m c) shapeCasts_S512_S1x512 := by host_prefix
theorem V_v5 (c : Dev nD) : (V m c main_v5 : S1x512.Idx → EReal)
    = shapeCast S1x512 (a4 m c) shapeCasts_S512_S1x512 := by host_prefix
theorem V_v6 (c : Dev nD) : (V m c main_v6 : S1x512.Idx → EReal)
    = shapeCast S1x512 (a5 m c) shapeCasts_S512_S1x512 := by host_prefix
theorem V_v8 (c : Dev nD) : (V m c main_v8 : S1x128.Idx → EReal)
    = pad S1x128 ![0, 0] ![0, 120] ![0, 0] (shapeCast S1x8 (a6 m c) shapeCasts_S8_S1x8)
        (sitofp (F := Ideal) .f32 (constantI S_ 32 0#32)) pads_S1x8_S1x128_000_01200 h_S_ := by host_prefix
theorem V_v11 (c : Dev nD) : (V m c main_v11 : S128x2048.Idx → EReal)
    = pad S128x2048 ![0, 0] ![120, 0] ![0, 0] (transpose S8x2048 [1, 0] (a7 m c) transposes_S2048x8_S8x2048_1_0)
        (sitofp (F := Ideal) .f32 (constantI S_ 32 0#32)) pads_S8x2048_S128x2048_01200_000 h_S_ := by host_prefix
theorem V_v12 (c : Dev nD) : (V m c main_v12 : S1x2048.Idx → EReal)
    = shapeCast S1x2048 (a8 m c) shapeCasts_S2048_S1x2048 := by host_prefix
theorem V_v14 (c : Dev nD) : (V m c main_v14 : S2048x512.Idx → EReal)
    = transpose S2048x512 [1, 0] (a9 m c) transposes_S512x2048_S2048x512_1_0 := by host_prefix
theorem V_v15 (c : Dev nD) : (V m c main_v15 : S1x512.Idx → EReal)
    = shapeCast S1x512 (a10 m c) shapeCasts_S512_S1x512 := by host_prefix
theorem V_v16 (c : Dev nD) : (V m c main_v16 : S1x512.Idx → EReal)
    = shapeCast S1x512 (a11 m c) shapeCasts_S512_S1x512 := by host_prefix
theorem V_v17 (c : Dev nD) : (V m c main_v17 : S1x512.Idx → EReal)
    = shapeCast S1x512 (a12 m c) shapeCasts_S512_S1x512 := by host_prefix

/-! ## … read at an entry -/

/-- Row r = 4096·b + s of the flattened input is token (b, s). -/
theorem V_v0_apply (c : Dev nD) (b : Fin 8) (s : Fin 4096) (k : Fin 512) (r : Fin 32768)
    (hr : r.val = b.val * 4096 + s.val) :
    (V m c main_v0 : S32768x512.Idx → EReal) (ix2 r k) = a0 m c (ix3 b s k) := by
  rw [V_v0]
  exact shapeCast_apply _ _ _ _ (by
    rw [Shape.rowMajor_val_two, Shape.rowMajor_val_three]
    show (b.val * 4096 + s.val) * 512 + k.val = r.val * 512 + k.val
    rw [hr])

/-- Entry k of the flattened θ is entry (k / 8, k mod 8). -/
theorem V_v1_apply (c : Dev nD) (k : Fin 512) :
    (V m c main_v1 : S1x512.Idx → EReal) (ix2 (0 : Fin 1) k)
      = a1 m c (ix2 (⟨k.val / 8, by have := k.isLt; omega⟩ : Fin 64) (⟨k.val % 8, by omega⟩ : Fin 8)) := by
  rw [V_v1]
  exact shapeCast_apply _ _ _ _ (by
    rw [Shape.rowMajor_val_two, Shape.rowMajor_val_two]
    show k.val / 8 * 8 + k.val % 8 = 0 * 512 + k.val
    omega)

theorem V_v3_apply (c : Dev nD) (k f : Fin 512) :
    (V m c main_v3 : S512x512.Idx → EReal) (ix2 k f) = a2 m c (ix2 f k) := by
  rw [V_v3]
  exact transpose_ix2_apply _ _ k f

theorem V_v4_apply (c : Dev nD) (f : Fin 512) :
    (V m c main_v4 : S1x512.Idx → EReal) (ix2 (0 : Fin 1) f) = a3 m c (ix1 f) := by
  rw [V_v4]
  exact shapeCast_a_1a_apply _ _ 0 f

theorem V_v5_apply (c : Dev nD) (f : Fin 512) :
    (V m c main_v5 : S1x512.Idx → EReal) (ix2 (0 : Fin 1) f) = a4 m c (ix1 f) := by
  rw [V_v5]
  exact shapeCast_a_1a_apply _ _ 0 f

theorem V_v6_apply (c : Dev nD) (f : Fin 512) :
    (V m c main_v6 : S1x512.Idx → EReal) (ix2 (0 : Fin 1) f) = a5 m c (ix1 f) := by
  rw [V_v6]
  exact shapeCast_a_1a_apply _ _ 0 f

theorem V_v12_apply (c : Dev nD) (f : Fin 2048) :
    (V m c main_v12 : S1x2048.Idx → EReal) (ix2 (0 : Fin 1) f) = a8 m c (ix1 f) := by
  rw [V_v12]
  exact shapeCast_a_1a_apply _ _ 0 f

theorem V_v15_apply (c : Dev nD) (f : Fin 512) :
    (V m c main_v15 : S1x512.Idx → EReal) (ix2 (0 : Fin 1) f) = a10 m c (ix1 f) := by
  rw [V_v15]
  exact shapeCast_a_1a_apply _ _ 0 f

theorem V_v16_apply (c : Dev nD) (f : Fin 512) :
    (V m c main_v16 : S1x512.Idx → EReal) (ix2 (0 : Fin 1) f) = a11 m c (ix1 f) := by
  rw [V_v16]
  exact shapeCast_a_1a_apply _ _ 0 f

theorem V_v17_apply (c : Dev nD) (f : Fin 512) :
    (V m c main_v17 : S1x512.Idx → EReal) (ix2 (0 : Fin 1) f) = a12 m c (ix1 f) := by
  rw [V_v17]
  exact shapeCast_a_1a_apply _ _ 0 f

/-- The first 8 entries of the padded ϑ are ϑ. -/
theorem V_v8_apply (c : Dev nD) (k : Fin 8) :
    (V m c main_v8 : S1x128.Idx → EReal) (ix2 (0 : Fin 1) (Fin.castLE (by decide) k : Fin 128)) = a6 m c (ix1 k) := by
  rw [V_v8]
  refine (pad_apply_of_inside _ _ _ _ _ _ _ (ix2 (0 : Fin 1) (Fin.castLE (by decide) k : Fin 128))
    (ix2 (0 : Fin 1) k) (fun a => ?_)).trans (shapeCast_a_1a_apply _ _ 0 k)
  match a with
  | ⟨0, _⟩ => rfl
  | ⟨1, _⟩ => show k.val = 0 + k.val * (0 + 1); omega

/-- The first 8 rows of the padded hidden-layer weights are W1 transposed. -/
theorem V_v11_apply (c : Dev nD) (k : Fin 8) (f : Fin 2048) :
    (V m c main_v11 : S128x2048.Idx → EReal) (ix2 (Fin.castLE (by decide) k : Fin 128) f) = a7 m c (ix2 f k) := by
  rw [V_v11]
  refine (pad_apply_of_inside _ _ _ _ _ _ _ (ix2 (Fin.castLE (by decide) k : Fin 128) f)
    (ix2 k f) (fun a => ?_)).trans (transpose_ix2_apply _ _ k f)
  match a with
  | ⟨0, _⟩ => show k.val = 0 + k.val * (0 + 1); omega
  | ⟨1, _⟩ => show f.val = 0 + f.val * (0 + 1); omega

/-- The other 120 rows are zero. -/
theorem V_v11_zero (c : Dev nD) (k : Fin 128) (f : Fin 2048) (hk : 8 ≤ k.val) :
    (V m c main_v11 : S128x2048.Idx → EReal) (ix2 k f) = (0 : EReal) := by
  rw [V_v11, pad_apply_of_not_inside _ _ _ _ _ _ _ (ix2 k f) (0 : Fin 2) (by
    intro h
    have h2 : (k.val - 0) / (0 + 1) < 8 := h.2.2
    omega)]
  show (((0#32 : BitVec 32).toInt : ℝ) : EReal) = 0
  simp

/-- Row f, column e of the transposed projection weights is W2(e, f). -/
theorem V_v14_apply (c : Dev nD) (f : Fin 2048) (e : Fin 512) :
    (V m c main_v14 : S2048x512.Idx → EReal) (ix2 f e) = a9 m c (ix2 e f) := by
  rw [V_v14]
  exact transpose_ix2_apply _ _ f e

end Cert.KernelIdeal.Arr

end
-- ==== Proof.KernelValue.lean ====
/-
  The kernel's result array, read off its run.

  Point t of the grid writes back rows 1024·t … 1024·t + 1023 of the result.  By the body's reading (one row of what
  it stores is the block function of the matching input row) the result array, once every point has written back,
  is at row r the block function of row r of the flattened input.  The result is then re-laid to 8 × 4096 × 512.
  Read through the layouts around the launch, and with the padded rows of the hidden layer's weights dropped (they
  are zero, so they add nothing), the program's result is the specification's function of its arguments.
-/
import proofs.«171714_j65481071402459_2_alg».proof.Proof.KernelLayout

noncomputable section

namespace Cert.KernelIdeal.Arr

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## What a point writes back, and the array after the run -/

/-- The flattened result: row r is the block function of row r of the flattened input, over the arrays as the
    launch finds them (the hidden layer fed 128 features). -/
def Gflat (c : Dev nD) : S32768x512.Idx → EReal := fun i =>
  Spec.block (n := 128) (by decide)
    (fun k => (V m c main_v1 : S1x512.Idx → EReal) (ix2 (0 : Fin 1) k))
    (fun k f => (V m c main_v3 : S512x512.Idx → EReal) (ix2 k f))
    (fun f => (V m c main_v4 : S1x512.Idx → EReal) (ix2 (0 : Fin 1) f))
    (fun e => (V m c main_v5 : S1x512.Idx → EReal) (ix2 (0 : Fin 1) e))
    (fun e => (V m c main_v6 : S1x512.Idx → EReal) (ix2 (0 : Fin 1) e))
    (fun k => (V m c main_v8 : S1x128.Idx → EReal) (ix2 (0 : Fin 1) k))
    (fun k f => (V m c main_v11 : S128x2048.Idx → EReal) (ix2 k f))
    (fun f => (V m c main_v12 : S1x2048.Idx → EReal) (ix2 (0 : Fin 1) f))
    (fun f e => (V m c main_v14 : S2048x512.Idx → EReal) (ix2 f e))
    (fun e => (V m c main_v15 : S1x512.Idx → EReal) (ix2 (0 : Fin 1) e))
    (fun e => (V m c main_v16 : S1x512.Idx → EReal) (ix2 (0 : Fin 1) e))
    (fun e => (V m c main_v17 : S1x512.Idx → EReal) (ix2 (0 : Fin 1) e))
    (fun k => (V m c main_v0 : S32768x512.Idx → EReal) (ix2 (i 0) k)) (i 1)

/-- The body's store at an entry of the block, the entry given by its two coordinates. -/
theorem block_at (x0 : Vec Ideal S1024x512 .f32) (x1 : Vec Ideal S1x512 .f32) (x2 : Vec Ideal S512x512 .bf16)
    (x3 x4 x5 : Vec Ideal S1x512 .f32) (x6 : Vec Ideal S1x128 .f32) (x7 : Vec Ideal S128x2048 .bf16)
    (x8 : Vec Ideal S1x2048 .f32) (x9 : Vec Ideal S2048x512 .bf16) (x10 x11 x12 : Vec Ideal S1x512 .f32)
    (y : S1024x512.Idx) :
    k0_pay1 (k0_pay6 (k0_pay2 x0 x1 x2 x3 x4) (k0_pay3 x5) x6 x7 x8 x9 x10)
        (k0_pay7 (k0_pay2 x0 x1 x2 x3 x4) (k0_pay3 x5) x6 x7 x8 x9 x10) x11 x12 y
      = Spec.block (n := 128) (by decide) (fun k => x1 (ix2 (0 : Fin 1) k)) (fun k f => x2 (ix2 k f))
          (fun f => x3 (ix2 (0 : Fin 1) f)) (fun e => x4 (ix2 (0 : Fin 1) e)) (fun e => x5 (ix2 (0 : Fin 1) e))
          (fun k => x6 (ix2 (0 : Fin 1) k)) (fun k f => x7 (ix2 k f)) (fun f => x8 (ix2 (0 : Fin 1) f))
          (fun f e => x9 (ix2 f e)) (fun e => x10 (ix2 (0 : Fin 1) e)) (fun e => x11 (ix2 (0 : Fin 1) e))
          (fun e => x12 (ix2 (0 : Fin 1) e)) (fun k => x0 (ix2 (y 0) k)) (y 1) :=
  (congrArg (k0_pay1 (k0_pay6 (k0_pay2 x0 x1 x2 x3 x4) (k0_pay3 x5) x6 x7 x8 x9 x10)
        (k0_pay7 (k0_pay2 x0 x1 x2 x3 x4) (k0_pay3 x5) x6 x7 x8 x9 x10) x11 x12) (eq_ix2 y)).trans
    (Block.outK_apply x0 x1 x2 x3 x4 x5 x6 x7 x8 x9 x10 x11 x12 (y 0) (y 1))

/-- WHAT POINT t WRITES BACK is block t of the flattened result. -/
theorem flushed_eq (c : Dev nD) (t : Fin cfg0.N) :
    (dats m 0 c).flushed 13 t = ((cfg0.win 13).blk t).view.read (Elt Ideal) (Gflat m c) := by
  have h0 : win0_13.index t (0 : Fin 2) = t.val := (idx_facts t).2.2.1
  have h1 : win0_13.index t (1 : Fin 2) = 0 := (idx_facts t).2.2.2.1
  show (cfg0.win 13).cut (grid0.coords t) ((dats m 0 c).after 13 t) = _
  rw [after0_13]
  unfold out0_13
  rw [View.canon_unit_zero hz]
  simp only [View.ld_unit_zero (S := S1024x512) hz, View.ld_unit_zero (S := S1x512) hz,
    View.ld_unit_zero (S := S512x512) hz, View.ld_unit_zero (S := S1x128) hz, View.ld_unit_zero (S := S128x2048) hz,
    View.ld_unit_zero (S := S1x2048) hz, View.ld_unit_zero (S := S2048x512) hz]
  funext j
  refine (block_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) j).trans ?_
  rw [View.read_apply]
  show _ = Gflat m c (((cfg0.win 13).blk t).view.emb j)
  unfold Gflat
  rw [iblk1_eq m c t, iblk2_eq m c t, iblk3_eq m c t, iblk4_eq m c t, iblk5_eq m c t, iblk6_eq m c t, iblk7_eq m c t,
    iblk8_eq m c t, iblk9_eq m c t, iblk10_eq m c t, iblk11_eq m c t, iblk12_eq m c t]
  have hrow : (fun k : Fin 512 => (iblk m c 0 t : S1024x512.Idx → EReal) (ix2 (j 0) k))
      = fun k : Fin 512 => (V m c main_v0 : S32768x512.Idx → EReal) (ix2 ((((cfg0.win 13).blk t).view.emb j) 0) k) :=
    funext fun k => iblk0_apply m c t (j 0) k _ (by
      show win0_13.index t (0 : Fin 2) * 1024 + 1 * (j 0).val = t.val * 1024 + (j 0).val
      rw [h0]; omega)
  have hcol : (j 1 : Fin 512) = (((cfg0.win 13).blk t).view.emb j) 1 := Fin.ext (by
    show (j 1).val = win0_13.index t (1 : Fin 2) * 512 + 1 * (j 1).val
    rw [h1]; omega)
  rw [hrow, hcol]

/-- Every row of the result lies in the block of the point that owns it: row r in block r / 1024. -/
theorem cover (c : Dev nD) (i : ((cfg0.win 13).arr.view.loc ((c.tc : Thread nD τ))).2.ty.Idx) :
    ∃ t : Fin cfg0.N, (cfg0.win 13).flush t = true ∧ i ∈ ((cfg0.win 13).blk t).view.set := by
  have hi0 : (i 0).val < 32768 := (i 0).isLt
  have hN : cfg0.N = 32 := N_0
  obtain ⟨t, ht⟩ : ∃ t : Fin cfg0.N, t.val = (i 0).val / 1024 := ⟨⟨(i 0).val / 1024, by rw [hN]; omega⟩, rfl⟩
  have h0 : win0_13.index t (0 : Fin 2) = t.val := (idx_facts t).2.2.1
  have h1 : win0_13.index t (1 : Fin 2) = 0 := (idx_facts t).2.2.2.1
  refine ⟨t, flush0_13 t, ?_⟩
  show i ∈ ((View.whole main_v18).slice (win0_13.rect t)).set
  rw [View.set_slice_whole, Rect.mem_set_unit]
  intro a
  match a with
  | ⟨0, _⟩ =>
    show win0_13.index t (0 : Fin 2) * 1024 ≤ (i 0).val ∧ (i 0).val < win0_13.index t (0 : Fin 2) * 1024 + 1024
    rw [h0, ht]; omega
  | ⟨1, _⟩ =>
    have hi1 : (i 1).val < 512 := (i 1).isLt
    show win0_13.index t (1 : Fin 2) * 512 ≤ (i 1).val ∧ (i 1).val < win0_13.index t (1 : Fin 2) * 512 + 512
    rw [h1]; omega

/-- THE RESULT ARRAY after the run is the flattened result. -/
theorem final (c : Dev nD) : (dats m 0 c).arrAt 13 cfg0.N = Gflat m c :=
  (dats m 0 c).arrAt_eq_of_cover 13 (Gflat m c) (fun t _ => flushed_eq m c t) (cover c)

/-- The host operation after the launch re-lays it to 8 × 4096 × 512. -/
theorem tail_eq (c : Dev nD) :
    Pipeline.afterTail₀ cfgs (dats m) 0 (V0 m) [hostOps1] c main_v19
      = shapeCast S8x4096x512 (Gflat m c) shapeCasts_S32768x512_S8x4096x512 := by
  unfold Pipeline.afterTail₀
  show StableHlo.after hostOps1 _ (Proc.devRef .tc main_v19) = _
  after_results
  have hA : Pipeline.withArrays (cfgs 0).spec c (V0 m c) (fun w => (dats m 0 c).arrAt w (cfgs 0).N)
      (Proc.devRef .tc main_v18) = Gflat m c :=
    (Pipeline.withArrays_arr spec0 launch0.win.arr_inj c _ _ 13).trans (final m c)
  rw [hA]
  rfl

/-! ## The result in terms of the arguments -/

/-- Entry (b, s, e) of the program's result is the block function of token (b, s), the hidden layer fed 8 features. -/
theorem Gout_apply (c : Dev nD) (b : Fin 8) (s : Fin 4096) (e : Fin 512) :
    shapeCast S8x4096x512 (Gflat m c) shapeCasts_S32768x512_S8x4096x512 (ix3 b s e)
      = Spec.Gtok (a0 m c) (a1 m c) (a2 m c) (a3 m c) (a4 m c) (a5 m c) (a6 m c) (a7 m c) (a8 m c) (a9 m c) (a10 m c) (a11 m c) (a12 m c) (ix3 b s e) := by
  have hb := b.isLt
  have hs := s.isLt
  rw [shapeCast_apply (Gflat m c) shapeCasts_S32768x512_S8x4096x512 (ix3 b s e)
    (ix2 (⟨b.val * 4096 + s.val, by omega⟩ : Fin 32768) e)
    (by rw [Shape.rowMajor_val_two, Shape.rowMajor_val_three]; rfl)]
  refine (congrFun (Spec.block_128_eq_8 _ _ _ _ _ _ _ (fun k => a6 m c (ix1 k)) (fun k f => a7 m c (ix2 f k)) _ _ _ _ _ _
    (V_v8_apply m c) (V_v11_apply m c) (V_v11_zero m c)) e).trans ?_
  show _ = Spec.block (n := 8) (by decide) _ _ _ _ _ _ _ _ _ _ _ _ (fun k => a0 m c (ix3 b s k)) e
  congr 1
  · exact funext (V_v1_apply m c)
  · exact funext fun k => funext fun f => V_v3_apply m c k f
  · exact funext (V_v4_apply m c)
  · exact funext (V_v5_apply m c)
  · exact funext (V_v6_apply m c)
  · exact funext (V_v12_apply m c)
  · exact funext fun f => funext fun e => V_v14_apply m c f e
  · exact funext (V_v15_apply m c)
  · exact funext (V_v16_apply m c)
  · exact funext (V_v17_apply m c)
  · exact funext fun k => V_v0_apply m c b s k _ rfl

/-- The program's result is the specification's function of its arguments. -/
theorem kernel_result (c : Dev nD) :
    shapeCast S8x4096x512 (Gflat m c) shapeCasts_S32768x512_S8x4096x512 = Spec.Gtok (a0 m c) (a1 m c) (a2 m c) (a3 m c) (a4 m c) (a5 m c) (a6 m c) (a7 m c) (a8 m c) (a9 m c) (a10 m c) (a11 m c) (a12 m c) :=
  funext fun i => by
    rw [eq_ix3 i]
    exact Gout_apply m c (i 0) (i 1) (i 2)

/-- THE RUN, READ: every weakly fair execution ends with the result array at the specification's function of the
    arguments, and the arguments as they were. -/
theorem run : θ_run defs (onTc (τ := τ) (main (F := Ideal))) ⟨m, fun _ => 0, ρ⟩ (fun r => ∀ c : Dev nD,
      r.2.mem ((c.tc : Thread nD τ).loc main_v19) = Spec.Gtok (a0 m c) (a1 m c) (a2 m c) (a3 m c) (a4 m c) (a5 m c) (a6 m c) (a7 m c) (a8 m c) (a9 m c) (a10 m c) (a11 m c) (a12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(((h c).2 main_v19 (Pipeline.mem_restRefs_of main_v19 (by decide) (by decide))).trans
        (tail_eq m c)).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Arr

end
-- ==== Proof.RefValue.lean ====
/-
  The reference program's result, entry by entry.

  The reference works on the 8 × 4096 × 512 array directly: every operation either acts entry by entry, or spreads a
  parameter vector along the last axis, or sums / contracts along the last axis.  So entry (b, s, e) of each of its
  stages depends on token (b, s) alone, and reading the stages one after the other at (b, s, ·) gives the
  specification's steps on that token: attention, layer norm, hidden layer (8 features), projection, layer norm.
-/
import proofs.«171714_j65481071402459_2_alg».proof.Proof.Gen.ReferenceIdeal.Read
import proofs.«171714_j65481071402459_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read
open scoped BigOperators

variable (x0 : S8x4096x512.Idx → EReal) (x1 : S64x8.Idx → EReal) (x2 : S512x512.Idx → EReal)
  (x3 x4 x5 : S512.Idx → EReal) (x6 : S8.Idx → EReal) (x7 : S2048x8.Idx → EReal) (x8 : S2048.Idx → EReal)
  (x9 : S512x2048.Idx → EReal) (x10 x11 x12 : S512.Idx → EReal)

/-! ## Index bookkeeping: the reference's index maps at a token -/

theorem lidx6 (b : Fin 8) (s : Fin 4096) (f k : Fin 512) : lidx_main_v6 (ix3 b s f) k = ix3 b s k :=
  funext fun a => by match a with | ⟨0, _⟩ => rfl | ⟨1, _⟩ => rfl | ⟨2, _⟩ => rfl

theorem ridx6 (b : Fin 8) (s : Fin 4096) (f k : Fin 512) : ridx_main_v6 (ix3 b s f) k = ix2 f k :=
  funext fun a => by match a with | ⟨0, _⟩ => rfl | ⟨1, _⟩ => rfl

/-- Feature k of a token, seen through the 64 × 8 split and back, is feature k. -/
theorem idx05 (b : Fin 8) (s : Fin 4096) (k : Fin 512) : idx_main_v0 (idx_main_v5 (ix3 b s k)) = ix3 b s k := by
  have hb := b.isLt; have hs := s.isLt; have hk := k.isLt
  funext a
  apply Fin.ext
  match a with
  | ⟨0, _⟩ =>
    show ((((((b.val * 4096 + s.val) * 512 + k.val) / 2097152) * 4096 + ((b.val * 4096 + s.val) * 512 + k.val) / 512 % 4096) * 64
      + ((b.val * 4096 + s.val) * 512 + k.val) / 8 % 64) * 8 + ((b.val * 4096 + s.val) * 512 + k.val) % 8) / 2097152 = b.val
    omega
  | ⟨1, _⟩ =>
    show ((((((b.val * 4096 + s.val) * 512 + k.val) / 2097152) * 4096 + ((b.val * 4096 + s.val) * 512 + k.val) / 512 % 4096) * 64
      + ((b.val * 4096 + s.val) * 512 + k.val) / 8 % 64) * 8 + ((b.val * 4096 + s.val) * 512 + k.val) % 8) / 512 % 4096 = s.val
    omega
  | ⟨2, _⟩ =>
    show ((((((b.val * 4096 + s.val) * 512 + k.val) / 2097152) * 4096 + ((b.val * 4096 + s.val) * 512 + k.val) / 512 % 4096) * 64
      + ((b.val * 4096 + s.val) * 512 + k.val) / 8 % 64) * 8 + ((b.val * 4096 + s.val) * 512 + k.val) % 8) % 512 = k.val
    omega

/-- … and its θ is entry (k / 8, k mod 8). -/
theorem idx125 (b : Fin 8) (s : Fin 4096) (k : Fin 512) :
    idx_main_v1 (idx_main_v2 (idx_main_v5 (ix3 b s k)))
      = ix2 (⟨k.val / 8, by have := k.isLt; omega⟩ : Fin 64) (⟨k.val % 8, by omega⟩ : Fin 8) := by
  have hb := b.isLt; have hs := s.isLt; have hk := k.isLt
  funext a
  apply Fin.ext
  match a with
  | ⟨0, _⟩ =>
    show ((b.val * 4096 + s.val) * 512 + k.val) / 8 % 64 = k.val / 8
    omega
  | ⟨1, _⟩ =>
    show ((b.val * 4096 + s.val) * 512 + k.val) % 8 = k.val % 8
    omega

/-! ## Attention -/

theorem v10_at (b : Fin 8) (s : Fin 4096) (f : Fin 512) :
    val_main_v10 (F := Ideal) x0 x1 x2 x3 (ix3 b s f)
      = Spec.attn (fun k => x1 (ix2 (⟨k.val / 8, by have := k.isLt; omega⟩ : Fin 64) (⟨k.val % 8, by omega⟩ : Fin 8)))
          (fun k f => x2 (ix2 f k)) (fun f => x3 (ix1 f)) (fun k => x0 (ix3 b s k)) f := by
  rw [val_main_v10_apply, val_main_v9_apply, val_main_v6_apply, val_main_v8_apply, val_main_v7_apply]
  simp only [Ideal.addf_def]
  unfold Spec.attn
  refine congrArg₂ (· + ·) rfl (congrArg₂ (· + ·) (Finset.sum_congr rfl fun k _ => ?_) (congrArg x3 ?_))
  · rw [val_main_v5_apply, val_main_v4_apply, val_main_v3_apply, val_main_v0_apply, val_main_v2_apply,
      val_main_v1_apply, lidx6, ridx6, idx05, idx125]
    rfl
  · exact funext fun a => by match a with | ⟨0, _⟩ => rfl

/-! ## First layer norm -/

theorem idxsum1a (b : Fin 8) (s : Fin 4096) (u : Fin 1) (k : Fin 512) :
    idx_main_v11 (idx_main_v12 (ix3 b s u)) k = ix3 b s k :=
  funext fun a => by match a with | ⟨0, _⟩ => rfl | ⟨1, _⟩ => rfl | ⟨2, _⟩ => rfl
theorem idxsum1b (b : Fin 8) (s : Fin 4096) (u : Fin 1) (k : Fin 512) :
    idx_main_v18 (idx_main_v19 (ix3 b s u)) k = ix3 b s k :=
  funext fun a => by match a with | ⟨0, _⟩ => rfl | ⟨1, _⟩ => rfl | ⟨2, _⟩ => rfl
theorem idxcol1a (b : Fin 8) (s : Fin 4096) (e : Fin 512) : idx_main_v15 (ix3 b s e) = ix3 b s (0 : Fin 1) :=
  funext fun a => by match a with | ⟨0, _⟩ => rfl | ⟨1, _⟩ => rfl | ⟨2, _⟩ => rfl
theorem idxcol1b (b : Fin 8) (s : Fin 4096) (e : Fin 512) : idx_main_v22 (ix3 b s e) = ix3 b s (0 : Fin 1) :=
  funext fun a => by match a with | ⟨0, _⟩ => rfl | ⟨1, _⟩ => rfl | ⟨2, _⟩ => rfl
theorem idxcol1c (b : Fin 8) (s : Fin 4096) (e : Fin 512) : idx_main_v27 (ix3 b s e) = ix3 b s (0 : Fin 1) :=
  funext fun a => by match a with | ⟨0, _⟩ => rfl | ⟨1, _⟩ => rfl | ⟨2, _⟩ => rfl

/-- The mean of the token's row. -/
theorem mean1_at (b : Fin 8) (s : Fin 4096) (v : Fin 512 → EReal)
    (hv : ∀ k, val_main_v10 (F := Ideal) x0 x1 x2 x3 (ix3 b s k) = v k) :
    val_main_v14 (F := Ideal) x0 x1 x2 x3 (ix3 b s (0 : Fin 1)) = Spec.mean v := by
  rw [val_main_v14_apply, val_main_v12_apply, val_main_v13_apply, val_main_v11_apply, val_main_cst_apply,
    val_main_cst_0_apply]
  simp only [Ideal.hostDivf_def, Ideal.ofBits_def]
  rw [Ideal.ofBits_zero_f32, zero_add]
  unfold Spec.mean Spec.c512
  refine congrArg₂ Ideal.div (Finset.sum_congr rfl fun k _ => ?_) rfl
  rw [idxsum1a]
  exact hv k

/-- The row with its mean taken off (the copy that is squared). -/
theorem cen1a_at (b : Fin 8) (s : Fin 4096) (v : Fin 512 → EReal)
    (hv : ∀ k, val_main_v10 (F := Ideal) x0 x1 x2 x3 (ix3 b s k) = v k) (e : Fin 512) :
    val_main_v16 (F := Ideal) x0 x1 x2 x3 (ix3 b s e) = v e - Spec.mean v := by
  rw [val_main_v16_apply, val_main_v15_apply, idxcol1a, mean1_at x0 x1 x2 x3 b s v hv, hv e]
  rfl

/-- The row with its mean taken off (the copy that is scaled). -/
theorem cen1b_at (b : Fin 8) (s : Fin 4096) (v : Fin 512 → EReal)
    (hv : ∀ k, val_main_v10 (F := Ideal) x0 x1 x2 x3 (ix3 b s k) = v k) (e : Fin 512) :
    val_main_v23 (F := Ideal) x0 x1 x2 x3 (ix3 b s e) = v e - Spec.mean v := by
  rw [val_main_v23_apply, val_main_v22_apply, idxcol1b, mean1_at x0 x1 x2 x3 b s v hv, hv e]
  rfl

/-- The variance of the token's row. -/
theorem var1_at (b : Fin 8) (s : Fin 4096) (v : Fin 512 → EReal)
    (hv : ∀ k, val_main_v10 (F := Ideal) x0 x1 x2 x3 (ix3 b s k) = v k) :
    val_main_v21 (F := Ideal) x0 x1 x2 x3 (ix3 b s (0 : Fin 1))
      = Spec.mean (fun k => (v k - Spec.mean v) * (v k - Spec.mean v)) := by
  rw [val_main_v21_apply, val_main_v19_apply, val_main_v20_apply, val_main_v18_apply, val_main_cst_1_apply,
    val_main_cst_2_apply]
  simp only [Ideal.hostDivf_def, Ideal.ofBits_def]
  rw [Ideal.ofBits_zero_f32, zero_add]
  unfold Spec.mean Spec.c512
  refine congrArg₂ Ideal.div (Finset.sum_congr rfl fun k _ => ?_) rfl
  rw [idxsum1b, val_main_v17_apply, cen1a_at x0 x1 x2 x3 b s v hv k]
  rfl

/-- The layer norm's output at the token is the specification's layer norm of the row. -/
theorem ln1_at (b : Fin 8) (s : Fin 4096) (v : Fin 512 → EReal)
    (hv : ∀ k, val_main_v10 (F := Ideal) x0 x1 x2 x3 (ix3 b s k) = v k) (e : Fin 512) :
    val_main_v34 (F := Ideal) x0 x1 x2 x3 x4 x5 (ix3 b s e)
      = Spec.ln (fun e => x4 (ix1 e)) (fun e => x5 (ix1 e)) v e := by
  rw [val_main_v34_apply, val_main_v31_apply, val_main_v28_apply, val_main_v27_apply, idxcol1c,
    val_main_v26_apply, val_main_v25_apply, val_main_v24_apply, val_main_cst_3_apply,
    var1_at x0 x1 x2 x3 b s v hv, cen1b_at x0 x1 x2 x3 b s v hv e,
    val_main_v30_apply, val_main_v29_apply, val_main_v33_apply, val_main_v32_apply]
  simp only [Ideal.addf_def, Ideal.mulf_def, Ideal.hostUnary_rsqrt_def, Ideal.ofBits_def]
  unfold Spec.ln Spec.norm Spec.eps
  refine congrArg₂ (· + ·) (congrArg₂ (· * ·) rfl (congrArg x4 ?_)) (congrArg x5 ?_)
  · exact funext fun a => by match a with | ⟨0, _⟩ => rfl
  · exact funext fun a => by match a with | ⟨0, _⟩ => rfl

/-! ## The hidden layer and the projection -/

theorem lidx40 (b : Fin 8) (s : Fin 4096) (f : Fin 2048) (k : Fin 8) : lidx_main_v40 (ix3 b s f) k = ix3 b s k :=
  funext fun a => by match a with | ⟨0, _⟩ => rfl | ⟨1, _⟩ => rfl | ⟨2, _⟩ => rfl
theorem ridx40 (b : Fin 8) (s : Fin 4096) (f : Fin 2048) (k : Fin 8) : ridx_main_v40 (ix3 b s f) k = ix2 f k :=
  funext fun a => by match a with | ⟨0, _⟩ => rfl | ⟨1, _⟩ => rfl
theorem lidx45 (b : Fin 8) (s : Fin 4096) (e : Fin 512) (f : Fin 2048) : lidx_main_v45 (ix3 b s e) f = ix3 b s f :=
  funext fun a => by match a with | ⟨0, _⟩ => rfl | ⟨1, _⟩ => rfl | ⟨2, _⟩ => rfl
theorem ridx45 (b : Fin 8) (s : Fin 4096) (e : Fin 512) (f : Fin 2048) : ridx_main_v45 (ix3 b s e) f = ix2 e f :=
  funext fun a => by match a with | ⟨0, _⟩ => rfl | ⟨1, _⟩ => rfl
theorem idx35 (b : Fin 8) (s : Fin 4096) (k : Fin 8) :
    idx_main_v35 (ix3 b s k) = ix3 b s (Fin.castLE (by decide) k : Fin 512) :=
  funext fun a => by match a with | ⟨0, _⟩ => rfl | ⟨1, _⟩ => rfl | ⟨2, _⟩ => rfl

/-- The hidden layer at the token: the first 8 normalised features enter. -/
theorem hid_at (b : Fin 8) (s : Fin 4096) (w : Fin 512 → EReal)
    (hx : ∀ k, val_main_v34 (F := Ideal) x0 x1 x2 x3 x4 x5 (ix3 b s k) = w k) (f : Fin 2048) :
    val_main_v44 (F := Ideal) x0 x1 x2 x3 x4 x5 x6 x7 x8 (ix3 b s f)
      = Spec.hidden (n := 8) (by decide) (fun k => x6 (ix1 k)) (fun k f => x7 (ix2 f k)) (fun f => x8 (ix1 f)) w f := by
  rw [val_main_v44_apply, val_main_v43_apply, val_main_v40_apply, val_main_v42_apply, val_main_v41_apply,
    val_main_call0_v0_apply, val_main_call0_cst_apply]
  simp only [Ideal.maximumf_def, Ideal.addf_def, Ideal.ofBits_def]
  unfold Spec.hidden Spec.z32
  refine congrArg₂ max (congrArg₂ (· + ·) (Finset.sum_congr rfl fun k _ => ?_) (congrArg x8 ?_)) rfl
  · rw [lidx40, ridx40, val_main_v39_apply, val_main_v38_apply, val_main_v35_apply, val_main_v37_apply,
      val_main_v36_apply, idx35, hx]
    simp only [Ideal.hostUnary_cos_def, Ideal.addf_def]
    refine congrArg₂ (· * ·) (congrArg Ideal.cos (congrArg₂ (· + ·) rfl (congrArg x6 ?_))) rfl
    exact funext fun a => by match a with | ⟨0, _⟩ => rfl
  · exact funext fun a => by match a with | ⟨0, _⟩ => rfl

/-- The projection with its residual at the token. -/
theorem proj_at (b : Fin 8) (s : Fin 4096) (w : Fin 512 → EReal)
    (hx : ∀ k, val_main_v34 (F := Ideal) x0 x1 x2 x3 x4 x5 (ix3 b s k) = w k) (e : Fin 512) :
    val_main_v49 (F := Ideal) x0 x1 x2 x3 x4 x5 x6 x7 x8 x9 x10 (ix3 b s e)
      = Spec.proj (fun f e => x9 (ix2 e f)) (fun e => x10 (ix1 e))
          (Spec.hidden (n := 8) (by decide) (fun k => x6 (ix1 k)) (fun k f => x7 (ix2 f k)) (fun f => x8 (ix1 f)) w)
          w e := by
  rw [val_main_v49_apply, val_main_v48_apply, val_main_v45_apply, val_main_v47_apply, val_main_v46_apply, hx e]
  simp only [Ideal.addf_def]
  unfold Spec.proj
  refine congrArg₂ (· + ·) rfl (congrArg₂ (· + ·) (Finset.sum_congr rfl fun f _ => ?_) (congrArg x10 ?_))
  · rw [lidx45, ridx45, hid_at x0 x1 x2 x3 x4 x5 x6 x7 x8 b s w hx f]
  · exact funext fun a => by match a with | ⟨0, _⟩ => rfl

/-! ## Second layer norm -/

theorem idxsum2a (b : Fin 8) (s : Fin 4096) (u : Fin 1) (k : Fin 512) :
    idx_main_v50 (idx_main_v51 (ix3 b s u)) k = ix3 b s k :=
  funext fun a => by match a with | ⟨0, _⟩ => rfl | ⟨1, _⟩ => rfl | ⟨2, _⟩ => rfl
theorem idxsum2b (b : Fin 8) (s : Fin 4096) (u : Fin 1) (k : Fin 512) :
    idx_main_v57 (idx_main_v58 (ix3 b s u)) k = ix3 b s k :=
  funext fun a => by match a with | ⟨0, _⟩ => rfl | ⟨1, _⟩ => rfl | ⟨2, _⟩ => rfl
theorem idxcol2a (b : Fin 8) (s : Fin 4096) (e : Fin 512) : idx_main_v54 (ix3 b s e) = ix3 b s (0 : Fin 1) :=
  funext fun a => by match a with | ⟨0, _⟩ => rfl | ⟨1, _⟩ => rfl | ⟨2, _⟩ => rfl
theorem idxcol2b (b : Fin 8) (s : Fin 4096) (e : Fin 512) : idx_main_v61 (ix3 b s e) = ix3 b s (0 : Fin 1) :=
  funext fun a => by match a with | ⟨0, _⟩ => rfl | ⟨1, _⟩ => rfl | ⟨2, _⟩ => rfl
theorem idxcol2c (b : Fin 8) (s : Fin 4096) (e : Fin 512) : idx_main_v66 (ix3 b s e) = ix3 b s (0 : Fin 1) :=
  funext fun a => by match a with | ⟨0, _⟩ => rfl | ⟨1, _⟩ => rfl | ⟨2, _⟩ => rfl

/-- The mean of the token's row. -/
theorem mean2_at (b : Fin 8) (s : Fin 4096) (v : Fin 512 → EReal)
    (hv : ∀ k, val_main_v49 (F := Ideal) x0 x1 x2 x3 x4 x5 x6 x7 x8 x9 x10 (ix3 b s k) = v k) :
    val_main_v53 (F := Ideal) x0 x1 x2 x3 x4 x5 x6 x7 x8 x9 x10 (ix3 b s (0 : Fin 1)) = Spec.mean v := by
  rw [val_main_v53_apply, val_main_v51_apply, val_main_v52_apply, val_main_v50_apply, val_main_cst_4_apply,
    val_main_cst_5_apply]
  simp only [Ideal.hostDivf_def, Ideal.ofBits_def]
  rw [Ideal.ofBits_zero_f32, zero_add]
  unfold Spec.mean Spec.c512
  refine congrArg₂ Ideal.div (Finset.sum_congr rfl fun k _ => ?_) rfl
  rw [idxsum2a]
  exact hv k

/-- The row with its mean taken off (the copy that is squared). -/
theorem cen2a_at (b : Fin 8) (s : Fin 4096) (v : Fin 512 → EReal)
    (hv : ∀ k, val_main_v49 (F := Ideal) x0 x1 x2 x3 x4 x5 x6 x7 x8 x9 x10 (ix3 b s k) = v k) (e : Fin 512) :
    val_main_v55 (F := Ideal) x0 x1 x2 x3 x4 x5 x6 x7 x8 x9 x10 (ix3 b s e) = v e - Spec.mean v := by
  rw [val_main_v55_apply, val_main_v54_apply, idxcol2a, mean2_at x0 x1 x2 x3 x4 x5 x6 x7 x8 x9 x10 b s v hv, hv e]
  rfl

/-- The row with its mean taken off (the copy that is scaled). -/
theorem cen2b_at (b : Fin 8) (s : Fin 4096) (v : Fin 512 → EReal)
    (hv : ∀ k, val_main_v49 (F := Ideal) x0 x1 x2 x3 x4 x5 x6 x7 x8 x9 x10 (ix3 b s k) = v k) (e : Fin 512) :
    val_main_v62 (F := Ideal) x0 x1 x2 x3 x4 x5 x6 x7 x8 x9 x10 (ix3 b s e) = v e - Spec.mean v := by
  rw [val_main_v62_apply, val_main_v61_apply, idxcol2b, mean2_at x0 x1 x2 x3 x4 x5 x6 x7 x8 x9 x10 b s v hv, hv e]
  rfl

/-- The variance of the token's row. -/
theorem var2_at (b : Fin 8) (s : Fin 4096) (v : Fin 512 → EReal)
    (hv : ∀ k, val_main_v49 (F := Ideal) x0 x1 x2 x3 x4 x5 x6 x7 x8 x9 x10 (ix3 b s k) = v k) :
    val_main_v60 (F := Ideal) x0 x1 x2 x3 x4 x5 x6 x7 x8 x9 x10 (ix3 b s (0 : Fin 1))
      = Spec.mean (fun k => (v k - Spec.mean v) * (v k - Spec.mean v)) := by
  rw [val_main_v60_apply, val_main_v58_apply, val_main_v59_apply, val_main_v57_apply, val_main_cst_6_apply,
    val_main_cst_7_apply]
  simp only [Ideal.hostDivf_def, Ideal.ofBits_def]
  rw [Ideal.ofBits_zero_f32, zero_add]
  unfold Spec.mean Spec.c512
  refine congrArg₂ Ideal.div (Finset.sum_congr rfl fun k _ => ?_) rfl
  rw [idxsum2b, val_main_v56_apply, cen2a_at x0 x1 x2 x3 x4 x5 x6 x7 x8 x9 x10 b s v hv k]
  rfl

/-- The layer norm's output at the token is the specification's layer norm of the row. -/
theorem ln2_at (b : Fin 8) (s : Fin 4096) (v : Fin 512 → EReal)
    (hv : ∀ k, val_main_v49 (F := Ideal) x0 x1 x2 x3 x4 x5 x6 x7 x8 x9 x10 (ix3 b s k) = v k) (e : Fin 512) :
    val_main_v73 (F := Ideal) x0 x1 x2 x3 x4 x5 x6 x7 x8 x9 x10 x11 x12 (ix3 b s e)
      = Spec.ln (fun e => x11 (ix1 e)) (fun e => x12 (ix1 e)) v e := by
  rw [val_main_v73_apply, val_main_v70_apply, val_main_v67_apply, val_main_v66_apply, idxcol2c,
    val_main_v65_apply, val_main_v64_apply, val_main_v63_apply, val_main_cst_8_apply,
    var2_at x0 x1 x2 x3 x4 x5 x6 x7 x8 x9 x10 b s v hv, cen2b_at x0 x1 x2 x3 x4 x5 x6 x7 x8 x9 x10 b s v hv e,
    val_main_v69_apply, val_main_v68_apply, val_main_v72_apply, val_main_v71_apply]
  simp only [Ideal.addf_def, Ideal.mulf_def, Ideal.hostUnary_rsqrt_def, Ideal.ofBits_def]
  unfold Spec.ln Spec.norm Spec.eps
  refine congrArg₂ (· + ·) (congrArg₂ (· * ·) rfl (congrArg x11 ?_)) (congrArg x12 ?_)
  · exact funext fun a => by match a with | ⟨0, _⟩ => rfl
  · exact funext fun a => by match a with | ⟨0, _⟩ => rfl

/-! ## The whole reference -/

/-- Entry (b, s, e) of the reference's result is the block function of token (b, s) at feature e. -/
theorem result_at (b : Fin 8) (s : Fin 4096) (e : Fin 512) :
    val_main_v73 (F := Ideal) x0 x1 x2 x3 x4 x5 x6 x7 x8 x9 x10 x11 x12 (ix3 b s e)
      = Spec.Gtok x0 x1 x2 x3 x4 x5 x6 x7 x8 x9 x10 x11 x12 (ix3 b s e) := by
  have h1 := fun k => ln1_at x0 x1 x2 x3 x4 x5 b s _ (fun k => v10_at x0 x1 x2 x3 b s k) k
  have h2 := fun k => proj_at x0 x1 x2 x3 x4 x5 x6 x7 x8 x9 x10 b s _ h1 k
  exact ln2_at x0 x1 x2 x3 x4 x5 x6 x7 x8 x9 x10 x11 x12 b s _ h2 e

theorem result_eq :
    val_main_v73 (F := Ideal) x0 x1 x2 x3 x4 x5 x6 x7 x8 x9 x10 x11 x12
      = Spec.Gtok x0 x1 x2 x3 x4 x5 x6 x7 x8 x9 x10 x11 x12 :=
  funext fun i => by
    rw [eq_ix3 i]
    exact result_at x0 x1 x2 x3 x4 x5 x6 x7 x8 x9 x10 x11 x12 (i 0) (i 1) (i 2)

end Cert.ReferenceIdeal.RefValue

end
-- ==== Proof.lean ====
/-
  A transformer block computed by a tiled kernel against its plain reference, equal on the extended reals.

  Both programs map every token x (a row of 512 features) of an 8 × 4096 × 512 input through
    y  = x + (Σₖ cos(x(k) + θ(k)) · Wc(·, k) + c)            attention with residual
    x₁ = LN(γ₁, β₁)(y)                                       layer norm
    h  = max(Σ_{k<8} cos(x₁(k) + ϑ(k)) · W1(·, k) + d, 0)    hidden layer on the first 8 features
    z  = x₁ + (Σ_f h(f) · W2(·, f) + b)                      projection with residual
    out = LN(γ₂, β₂)(z)                                      layer norm
  (Spec.lean states this once, as Spec.Gtok).  The reference does so on the array as given (RefValue.lean).  The kernel
  flattens the tokens to 32768 rows and handles 1024 of them per grid point, with the weight matrices transposed
  beforehand and the hidden layer widened from 8 to 128 features, the extra rows of its weights zero: a product
  with zero is zero on the extended reals whatever the other factor is, so the widening changes no sum
  (KernelBlock.lean reads the body on a block, KernelLayout.lean the arrays around the launch, KernelValue.lean the
  result array after the run).  Changes of float format are the identity on the extended reals, a matrix product is
  the sum over the contracted index on both sides, and sums are taken over the same index sets, so no finiteness
  of the inputs is needed: the precondition is never opened.

  The kernel is printed twice, at words and at extended reals, with nothing rewritten between the two, so the
  idealization claim is trivial; the three programs' runs leave their arguments unchanged (the generated frames).
-/
import proofs.«171714_j65481071402459_2_alg».proof.Defs
import proofs.«171714_j65481071402459_2_alg».proof.Proof.Gen.Kernel
import proofs.«171714_j65481071402459_2_alg».proof.Proof.Gen.Kernel.Skeleton
import proofs.«171714_j65481071402459_2_alg».proof.Proof.Gen.Kernel.Launch
import proofs.«171714_j65481071402459_2_alg».proof.Proof.Gen.Kernel.Points
import proofs.«171714_j65481071402459_2_alg».proof.Proof.Gen.Kernel.Frame
import proofs.«171714_j65481071402459_2_alg».proof.Proof.Gen.KernelIdeal
import proofs.«171714_j65481071402459_2_alg».proof.Proof.Gen.KernelIdeal.Skeleton
import proofs.«171714_j65481071402459_2_alg».proof.Proof.Gen.KernelIdeal.Launch
import proofs.«171714_j65481071402459_2_alg».proof.Proof.Gen.KernelIdeal.Points
import proofs.«171714_j65481071402459_2_alg».proof.Proof.Gen.KernelIdeal.Frame
import proofs.«171714_j65481071402459_2_alg».proof.Proof.Gen.ReferenceIdeal
import proofs.«171714_j65481071402459_2_alg».proof.Proof.Gen.Pre_finite_inputs
import proofs.«171714_j65481071402459_2_alg».proof.Proof.Gen.ReferenceIdeal.Run
import proofs.«171714_j65481071402459_2_alg».proof.Proof.Gen.ReferenceIdeal.Read
import proofs.«171714_j65481071402459_2_alg».proof.Proof.KernelValue
import proofs.«171714_j65481071402459_2_alg».proof.Proof.RefValue
import Idealize.ShloMosaic.Adequacy
import Idealize.ShloMosaic.Init

noncomputable section

namespace Cert.Proof

open Idealize.ShloMosaic Idealize.ShloMosaic.TcCoe Idealize.SL.Sem

/-- The three runs terminate without a fault and leave the arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel's two prints. -/
theorem preserves : Cert.preserves_Kernel_KernelIdeal := trivial

/-- From memories agreeing on the arguments, both programs end with the specification's function of the arguments
    in their result arrays: the kernel by the reading of its run, the reference by the reading of its stages. -/
theorem algebraic : Cert.algebraic_KernelIdeal_ReferenceIdeal := by
  intro m ρ m' ρ' _ hagree
  refine ⟨fun c => Cert.Spec.Gtok (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, Cert.ReferenceIdeal.RefValue.result_eq]
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
